-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v97)) (v1 : (c : Dev Cert.KernelIdeal.nD) → Buf (Elt Ideal) ((c.tc : Thread Cert.KernelIdeal.nD Cert.KernelIdeal.τ).loc Cert.KernelIdeal.main_v100)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v97) = v0 c
          ∧ r.2.mem ((c.tc : Thread Cert.KernelIdeal.nD Cert.KernelIdeal.τ).loc Cert.KernelIdeal.main_v100) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v113) = v0 c
          ∧ r.2.mem ((c.tc : Thread Cert.ReferenceIdeal.nD Cert.ReferenceIdeal.τ).loc Cert.ReferenceIdeal.main_v107) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x256 : Shape := ⟨2, ![2048, 256]⟩
abbrev S1024x32 : Shape := ⟨2, ![1024, 32]⟩
abbrev S1024x256 : Shape := ⟨2, ![1024, 256]⟩
abbrev S1024 : Shape := ⟨1, ![1024]⟩
abbrev S1024x288 : Shape := ⟨2, ![1024, 288]⟩
abbrev S32x256 : Shape := ⟨2, ![32, 256]⟩
abbrev S32 : Shape := ⟨1, ![32]⟩
abbrev S256x288 : Shape := ⟨2, ![256, 288]⟩
abbrev S256 : Shape := ⟨1, ![256]⟩
abbrev S_ : Shape := ⟨0, ![]⟩

class Facts : Prop where
  bcast_S_S2048x256 : S_.BroadcastsInDim S2048x256 (![] : Fin 0 → Fin S2048x256.rank)
  reducesTo_S2048x256_S_d0_1 : S2048x256.ReducesTo [0, 1] S_
  h_S_ : 0 < S_.numel
  bcast_S_S1024x32 : S_.BroadcastsInDim S1024x32 (![] : Fin 0 → Fin S1024x32.rank)
  reducesTo_S1024x32_S_d0_1 : S1024x32.ReducesTo [0, 1] S_
  bcast_S_S1024x256 : S_.BroadcastsInDim S1024x256 (![] : Fin 0 → Fin S1024x256.rank)
  reducesTo_S1024x256_S_d0_1 : S1024x256.ReducesTo [0, 1] S_
  bcast_S_S1024 : S_.BroadcastsInDim S1024 (![] : Fin 0 → Fin S1024.rank)
  reducesTo_S1024_S_d0 : S1024.ReducesTo [0] S_
  bcast_S_S1024x288 : S_.BroadcastsInDim S1024x288 (![] : Fin 0 → Fin S1024x288.rank)
  reducesTo_S1024x288_S_d0_1 : S1024x288.ReducesTo [0, 1] S_
  bcast_S_S32x256 : S_.BroadcastsInDim S32x256 (![] : Fin 0 → Fin S32x256.rank)
  reducesTo_S32x256_S_d0_1 : S32x256.ReducesTo [0, 1] S_
  bcast_S_S32 : S_.BroadcastsInDim S32 (![] : Fin 0 → Fin S32.rank)
  reducesTo_S32_S_d0 : S32.ReducesTo [0] S_
  bcast_S_S256x288 : S_.BroadcastsInDim S256x288 (![] : Fin 0 → Fin S256x288.rank)
  reducesTo_S256x288_S_d0_1 : S256x288.ReducesTo [0, 1] S_
  bcast_S_S256 : S_.BroadcastsInDim S256 (![] : Fin 0 → Fin S256.rank)
  reducesTo_S256_S_d0 : S256.ReducesTo [0] S_

variable [Facts]

def fn_part4 {F : FTy → Type} [FloatOps F] (main_arg14 : FVec F S256x288 .f32) (main_arg15 : FVec F S256 .f32) (main_v63 : IVec S_ 1) (main_v67 : IVec S_ 1) : IVec S_ 1 :=
  let main_v68 : IVec S_ 1 := andi main_v63 main_v67
  let main_v69 : FVec F S256x288 .f32 := Host.absf main_arg14
  let main_cst_26 : FVec F S_ .f32 := constant S_ .f32 0x7F800000#32
  let main_v70 : FVec F S256x288 .f32 := broadcastInDim S256x288 ![] bcast_S_S256x288 main_cst_26
  let main_v71 : IVec S256x288 1 := cmpf .olt main_v69 main_v70
  let main_c_27 : IVec S_ 1 := constantI S_ 1 1#1
  let main_v72 : IVec S_ 1 := (fun x v => Host.reduce IntOp.andi x v reducesTo_S256x288_S_d0_1 h_S_) main_v71 main_c_27
  let main_v73 : IVec S_ 1 := andi main_v68 main_v72
  let main_v74 : FVec F S256 .f32 := Host.absf main_arg15
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  main_v78

def fn_part3 {F : FTy → Type} [FloatOps F] (main_arg11 : FVec F S32 .f32) (main_arg12 : FVec F S32x256 .f32) (main_arg13 : FVec F S32 .f32) (main_arg14 : FVec F S256x288 .f32) (main_arg15 : FVec F S256 .f32) (main_v48 : IVec S_ 1) (main_v49 : FVec F S32x256 .f32) (main_v50 : FVec F S32x256 .f32) : IVec S_ 1 :=
  let main_v51 : IVec S32x256 1 := cmpf .olt main_v49 main_v50
  let main_c_19 : IVec S_ 1 := constantI S_ 1 1#1
  let main_v52 : IVec S_ 1 := (fun x v => Host.reduce IntOp.andi x v reducesTo_S32x256_S_d0_1 h_S_) main_v51 main_c_19
  let main_v53 : IVec S_ 1 := andi main_v48 main_v52
  let main_v54 : FVec F S32 .f32 := Host.absf main_arg11
  let main_cst_20 : FVec F S_ .f32 := constant S_ .f32 0x7F800000#32
  let main_v55 : FVec F S32 .f32 := broadcastInDim S32 ![] bcast_S_S32 main_cst_20
  let main_v56 : IVec S32 1 := cmpf .olt main_v54 main_v55
  let main_c_21 : IVec S_ 1 := constantI S_ 1 1#1
  let main_v57 : IVec S_ 1 := (fun x v => Host.reduce IntOp.andi x v reducesTo_S32_S_d0 h_S_) main_v56 main_c_21
  let main_v58 : IVec S_ 1 := andi main_v53 main_v57
  let main_v59 : FVec F S32x256 .f32 := Host.absf main_arg12
  let main_cst_22 : FVec F S_ .f32 := constant S_ .f32 0x7F800000#32
  let main_v60 : FVec F S32x256 .f32 := broadcastInDim S32x256 ![] bcast_S_S32x256 main_cst_22
  let main_v61 : IVec S32x256 1 := cmpf .olt main_v59 main_v60
  let main_c_23 : IVec S_ 1 := constantI S_ 1 1#1
  let main_v62 : IVec S_ 1 := (fun x v => Host.reduce IntOp.andi x v reducesTo_S32x256_S_d0_1 h_S_) main_v61 main_c_23
  let main_v63 : IVec S_ 1 := andi main_v58 main_v62
  let main_v64 : FVec F S32 .f32 := Host.absf main_arg13
  let main_cst_24 : FVec F S_ .f32 := constant S_ .f32 0x7F800000#32
  let main_v65 : FVec F S32 .f32 := broadcastInDim S32 ![] bcast_S_S32 main_cst_24
  let main_v66 : IVec S32 1 := cmpf .olt main_v64 main_v65
  let main_c_25 : IVec S_ 1 := constantI S_ 1 1#1
  let main_v67 : IVec S_ 1 := (fun x v => Host.reduce IntOp.andi x v reducesTo_S32_S_d0 h_S_) main_v66 main_c_25
  fn_part4 (F := F) main_arg14 main_arg15 main_v63 main_v67

def fn_part2 {F : FTy → Type} [FloatOps F] (main_arg7 : FVec F S1024 .f32) (main_arg8 : FVec F S1024x256 .f32) (main_arg9 : FVec F S1024 .f32) (main_arg10 : FVec F S32x256 .f32) (main_arg11 : FVec F S32 .f32) (main_arg12 : FVec F S32x256 .f32) (main_arg13 : FVec F S32 .f32) (main_arg14 : FVec F S256x288 .f32) (main_arg15 : FVec F S256 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024x256 .f32 := Host.absf main_arg8
  let main_cst_14 : FVec F S_ .f32 := constant S_ .f32 0x7F800000#32
  let main_v40 : FVec F S1024x256 .f32 := broadcastInDim S1024x256 ![] bcast_S_S1024x256 main_cst_14
  let main_v41 : IVec S1024x256 1 := cmpf .olt main_v39 main_v40
  let main_c_15 : IVec S_ 1 := constantI S_ 1 1#1
  let main_v42 : IVec S_ 1 := (fun x v => Host.reduce IntOp.andi x v reducesTo_S1024x256_S_d0_1 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S32x256 .f32 := Host.absf main_arg10
  let main_cst_18 : FVec F S_ .f32 := constant S_ .f32 0x7F800000#32
  let main_v50 : FVec F S32x256 .f32 := broadcastInDim S32x256 ![] bcast_S_S32x256 main_cst_18
  fn_part3 (F := F) main_arg11 main_arg12 main_arg13 main_arg14 main_arg15 main_v48 main_v49 main_v50

def fn_part1 {F : FTy → Type} [FloatOps F] (main_arg4 : FVec F S1024x288 .f32) (main_arg5 : FVec F S1024x256 .f32) (main_arg6 : FVec F S1024 .f32) (main_arg7 : FVec F S1024 .f32) (main_arg8 : FVec F S1024x256 .f32) (main_arg9 : FVec F S1024 .f32) (main_arg10 : FVec F S32x256 .f32) (main_arg11 : FVec F S32 .f32) (main_arg12 : FVec F S32x256 .f32) (main_arg13 : FVec F S32 .f32) (main_arg14 : FVec F S256x288 .f32) (main_arg15 : FVec F S256 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x288 .f32 := Host.absf main_arg4
  let main_cst_6 : FVec F S_ .f32 := constant S_ .f32 0x7F800000#32
  let main_v20 : FVec F S1024x288 .f32 := broadcastInDim S1024x288 ![] bcast_S_S1024x288 main_cst_6
  let main_v21 : IVec S1024x288 1 := cmpf .olt main_v19 main_v20
  let main_c_7 : IVec S_ 1 := constantI S_ 1 1#1
  let main_v22 : IVec S_ 1 := (fun x v => Host.reduce IntOp.andi x v reducesTo_S1024x288_S_d0_1 h_S_) main_v21 main_c_7
  let main_v23 : IVec S_ 1 := andi main_v18 main_v22
  let main_v24 : FVec F S1024x256 .f32 := Host.absf main_arg5
  let main_cst_8 : FVec F S_ .f32 := constant S_ .f32 0x7F800000#32
  let main_v25 : FVec F S1024x256 .f32 := broadcastInDim S1024x256 ![] bcast_S_S1024x256 main_cst_8
  let main_v26 : IVec S1024x256 1 := cmpf .olt main_v24 main_v25
  let main_c_9 : IVec S_ 1 := constantI S_ 1 1#1
  let main_v27 : IVec S_ 1 := (fun x v => Host.reduce IntOp.andi x v reducesTo_S1024x256_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S2048x256 .f32) (main_arg1 : FVec F S1024x32 .f32) (main_arg2 : FVec F S1024x256 .f32) (main_arg3 : FVec F S1024 .f32) (main_arg4 : FVec F S1024x288 .f32) (main_arg5 : FVec F S1024x256 .f32) (main_arg6 : FVec F S1024 .f32) (main_arg7 : FVec F S1024 .f32) (main_arg8 : FVec F S1024x256 .f32) (main_arg9 : FVec F S1024 .f32) (main_arg10 : FVec F S32x256 .f32) (main_arg11 : FVec F S32 .f32) (main_arg12 : FVec F S32x256 .f32) (main_arg13 : FVec F S32 .f32) (main_arg14 : FVec F S256x288 .f32) (main_arg15 : FVec F S256 .f32) : IVec S_ 1 :=
  let main_v0 : FVec F S2048x256 .f32 := Host.absf main_arg0
  let main_cst : FVec F S_ .f32 := constant S_ .f32 0x7F800000#32
  let main_v1 : FVec F S2048x256 .f32 := broadcastInDim S2048x256 ![] bcast_S_S2048x256 main_cst
  let main_v2 : IVec S2048x256 1 := cmpf .olt main_v0 main_v1
  let main_c : IVec S_ 1 := constantI S_ 1 1#1
  let main_v3 : IVec S_ 1 := (fun x v => Host.reduce IntOp.andi x v reducesTo_S2048x256_S_d0_1 h_S_) main_v2 main_c
  let main_v4 : FVec F S1024x32 .f32 := Host.absf main_arg1
  let main_cst_0 : FVec F S_ .f32 := constant S_ .f32 0x7F800000#32
  let main_v5 : FVec F S1024x32 .f32 := broadcastInDim S1024x32 ![] bcast_S_S1024x32 main_cst_0
  let main_v6 : IVec S1024x32 1 := cmpf .olt main_v4 main_v5
  let main_c_1 : IVec S_ 1 := constantI S_ 1 1#1
  let main_v7 : IVec S_ 1 := (fun x v => Host.reduce IntOp.andi x v reducesTo_S1024x32_S_d0_1 h_S_) main_v6 main_c_1
  let main_v8 : IVec S_ 1 := andi main_v3 main_v7
  let main_v9 : FVec F S1024x256 .f32 := Host.absf main_arg2
  let main_cst_2 : FVec F S_ .f32 := constant S_ .f32 0x7F800000#32
  let main_v10 : FVec F S1024x256 .f32 := broadcastInDim S1024x256 ![] bcast_S_S1024x256 main_cst_2
  let main_v11 : IVec S1024x256 1 := cmpf .olt main_v9 main_v10
  let main_c_3 : IVec S_ 1 := constantI S_ 1 1#1
  let main_v12 : IVec S_ 1 := (fun x v => Host.reduce IntOp.andi x v reducesTo_S1024x256_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S2048x256 : Shape := ⟨2, ![2048, 256]⟩
abbrev S1024x32 : Shape := ⟨2, ![1024, 32]⟩
abbrev S1024x256 : Shape := ⟨2, ![1024, 256]⟩
abbrev S1024 : Shape := ⟨1, ![1024]⟩
abbrev S1024x288 : Shape := ⟨2, ![1024, 288]⟩
abbrev S32x256 : Shape := ⟨2, ![32, 256]⟩
abbrev S32 : Shape := ⟨1, ![32]⟩
abbrev S256x288 : Shape := ⟨2, ![256, 288]⟩
abbrev S256 : Shape := ⟨1, ![256]⟩
abbrev S_ : Shape := ⟨0, ![]⟩
abbrev S256x1024 : Shape := ⟨2, ![256, 1024]⟩
abbrev S2048x1024 : Shape := ⟨2, ![2048, 1024]⟩
abbrev S1x1024 : Shape := ⟨2, ![1, 1024]⟩
abbrev S2048 : Shape := ⟨1, ![2048]⟩
abbrev S2048x1 : Shape := ⟨2, ![2048, 1]⟩
abbrev S2048x32 : Shape := ⟨2, ![2048, 32]⟩
abbrev S2048x288 : Shape := ⟨2, ![2048, 288]⟩
abbrev S288x1024 : Shape := ⟨2, ![288, 1024]⟩
abbrev S256x32 : Shape := ⟨2, ![256, 32]⟩
abbrev S1x32 : Shape := ⟨2, ![1, 32]⟩
abbrev S288x256 : Shape := ⟨2, ![288, 256]⟩
abbrev S1x256 : Shape := ⟨2, ![1, 256]⟩
abbrev S2048x1x32 : Shape := ⟨3, ![2048, 1, 32]⟩
abbrev S2048x1024x32 : Shape := ⟨3, ![2048, 1024, 32]⟩
abbrev S32x1024 : Shape := ⟨2, ![32, 1024]⟩
abbrev S32x1x32 : Shape := ⟨3, ![32, 1, 32]⟩
abbrev S32x1024x32 : Shape := ⟨3, ![32, 1024, 32]⟩
abbrev S32x1024x1 : Shape := ⟨3, ![32, 1024, 1]⟩
abbrev S1x1024x32 : Shape := ⟨3, ![1, 1024, 32]⟩

abbrev nBuf : Space → Nat
  | .hbm => 133
  | .vmem => 9
  | .smem => 0
  | _ => 0

abbrev hbmTy0_0 (i : Nat) : BufTy := match i % 128 with
  | 0 => ⟨S2048x256, .f32⟩
  | 1 => ⟨S1024x32, .f32⟩
  | 2 => ⟨S1024x256, .f32⟩
  | 3 => ⟨S1024, .f32⟩
  | 4 => ⟨S1024x288, .f32⟩
  | 5 => ⟨S1024x256, .f32⟩
  | 6 => ⟨S1024, .f32⟩
  | 7 => ⟨S1024, .f32⟩
  | 8 => ⟨S1024x256, .f32⟩
  | 9 => ⟨S1024, .f32⟩
  | 10 => ⟨S32x256, .f32⟩
  | 11 => ⟨S32, .f32⟩
  | 12 => ⟨S32x256, .f32⟩
  | 13 => ⟨S32, .f32⟩
  | 14 => ⟨S256x288, .f32⟩
  | 15 => ⟨S256, .f32⟩
  | 16 => ⟨S_, .f32⟩
  | 17 => ⟨S2048x256, .f32⟩
  | 18 => ⟨S_, .f32⟩
  | 19 => ⟨S2048x256, .f32⟩
  | 20 => ⟨S256x1024, .f32⟩
  | 21 => ⟨S2048x1024, .f32⟩
  | 22 => ⟨S1x1024, .f32⟩
  | 23 => ⟨S2048x1024, .f32⟩
  | 24 => ⟨S2048x1024, .f32⟩
  | 25 => ⟨S_, .f32⟩
  | 26 => ⟨S2048, .f32⟩
  | 27 => ⟨S_, .f32⟩
  | 28 => ⟨S2048, .f32⟩
  | 29 => ⟨S2048, .f32⟩
  | 30 => ⟨S2048x1, .f32⟩
  | 31 => ⟨S2048x1024, .f32⟩
  | 32 => ⟨S2048x1024, .f32⟩
  | 33 => ⟨S2048x1024, .f32⟩
  | 34 => ⟨S_, .f32⟩
  | 35 => ⟨S2048, .f32⟩
  | 36 => ⟨S2048x1, .f32⟩
  | 37 => ⟨S2048x1024, .f32⟩
  | 38 => ⟨S2048x1024, .f32⟩
  | 39 => ⟨S2048x32, .f32⟩
  | 40 => ⟨S2048x288, .f32⟩
  | 41 => ⟨S288x1024, .f32⟩
  | 42 => ⟨S2048x1024, .f32⟩
  | 43 => ⟨S1x1024, .f32⟩
  | 44 => ⟨S2048x1024, .f32⟩
  | 45 => ⟨S2048x1024, .f32⟩
  | 46 => ⟨S256x1024, .f32⟩
  | 47 => ⟨S2048x1024, .f32⟩
  | 48 => ⟨S2048x1024, .f32⟩
  | 49 => ⟨S1x1024, .f32⟩
  | 50 => ⟨S2048x1024, .f32⟩
  | 51 => ⟨S2048x1024, .f32⟩
  | 52 => ⟨S2048x256, .f32⟩
  | 53 => ⟨S2048x256, .f32⟩
  | 54 => ⟨S2048x256, .f32⟩
  | 55 => ⟨S2048x256, .f32⟩
  | 56 => ⟨S2048x256, .f32⟩
  | 57 => ⟨S2048x256, .f32⟩
  | 58 => ⟨S_, .f32⟩
  | 59 => ⟨S2048x256, .f32⟩
  | 60 => ⟨S2048x256, .f32⟩
  | 61 => ⟨S_, .f32⟩
  | 62 => ⟨S2048x256, .f32⟩
  | 63 => ⟨S2048x256, .f32⟩
  | 64 => ⟨S2048x256, .f32⟩
  | 65 => ⟨S2048x256, .f32⟩
  | 66 => ⟨S_, .f32⟩
  | 67 => ⟨S2048x256, .f32⟩
  | 68 => ⟨S2048x256, .f32⟩
  | 69 => ⟨S_, .f32⟩
  | 70 => ⟨S2048x256, .f32⟩
  | 71 => ⟨S2048x256, .f32⟩
  | 72 => ⟨S2048x256, .f32⟩
  | 73 => ⟨S2048x256, .f32⟩
  | 74 => ⟨S2048x256, .f32⟩
  | 75 => ⟨S_, .f32⟩
  | 76 => ⟨S2048x256, .f32⟩
  | 77 => ⟨S2048x256, .f32⟩
  | 78 => ⟨S_, .f32⟩
  | 79 => ⟨S2048x256, .f32⟩
  | 80 => ⟨S2048x256, .f32⟩
  | 81 => ⟨S2048x256, .f32⟩
  | 82 => ⟨S2048x256, .f32⟩
  | 83 => ⟨S2048x256, .f32⟩
  | 84 => ⟨S2048x256, .f32⟩
  | 85 => ⟨S2048x256, .f32⟩
  | 86 => ⟨S256x1024, .f32⟩
  | 87 => ⟨S2048x1024, .f32⟩
  | 88 => ⟨S1x1024, .f32⟩
  | 89 => ⟨S2048x1024, .f32⟩
  | 90 => ⟨S2048x1024, .f32⟩
  | 91 => ⟨S_, .f32⟩
  | 92 => ⟨S2048, .f32⟩
  | 93 => ⟨S_, .f32⟩
  | 94 => ⟨S2048, .f32⟩
  | 95 => ⟨S2048, .f32⟩
  | 96 => ⟨S2048x1, .f32⟩
  | 97 => ⟨S2048x1024, .f32⟩
  | 98 => ⟨S2048x1024, .f32⟩
  | 99 => ⟨S2048x1024, .f32⟩
  | 100 => ⟨S_, .f32⟩
  | 101 => ⟨S2048, .f32⟩
  | 102 => ⟨S2048x1, .f32⟩
  | 103 => ⟨S2048x1024, .f32⟩
  | 104 => ⟨S2048x1024, .f32⟩
  | 105 => ⟨S256x32, .f32⟩
  | 106 => ⟨S2048x32, .f32⟩
  | 107 => ⟨S1x32, .f32⟩
  | 108 => ⟨S2048x32, .f32⟩
  | 109 => ⟨S2048x32, .f32⟩
  | 110 => ⟨S2048x32, .f32⟩
  | 111 => ⟨S2048x32, .f32⟩
  | 112 => ⟨S_, .f32⟩
  | 113 => ⟨S2048x32, .f32⟩
  | 114 => ⟨S2048x32, .f32⟩
  | 115 => ⟨S_, .f32⟩
  | 116 => ⟨S2048x32, .f32⟩
  | 117 => ⟨S2048x32, .f32⟩
  | 118 => ⟨S256x32, .f32⟩
  | 119 => ⟨S2048x32, .f32⟩
  | 120 => ⟨S1x32, .f32⟩
  | 121 => ⟨S2048x32, .f32⟩
  | 122 => ⟨S2048x32, .f32⟩
  | 123 => ⟨S2048x32, .f32⟩
  | 124 => ⟨S2048x288, .f32⟩
  | 125 => ⟨S288x256, .f32⟩
  | 126 => ⟨S2048x256, .f32⟩
  | 127 => ⟨S1x256, .f32⟩
  | _ => ⟨S2048x256, .f32⟩

abbrev hbmTy0_1 (i : Nat) : BufTy := match i % 128 with
  | 0 => ⟨S2048x256, .f32⟩
  | 1 => ⟨S2048x256, .f32⟩
  | 2 => ⟨S2048x1x32, .f32⟩
  | 3 => ⟨S2048x1x32, .f32⟩
  | 4 => ⟨S2048x1024x32, .f32⟩
  | _ => ⟨S2048x256, .f32⟩

abbrev hbmTy (i : Nat) : BufTy := match i / 128 with
  | 0 => hbmTy0_0 i
  | 1 => hbmTy0_1 i
  | _ => ⟨S2048x256, .f32⟩

abbrev bufTy : (tb : Table) → Fin (tcTables nBuf tb) → BufTy
  | .hbm, ⟨i, _⟩ => hbmTy i
  | .local _ .vmem, ⟨0, _⟩ => ⟨S1024x32, .f32⟩
  | .local _ .vmem, ⟨1, _⟩ => ⟨S32x1024, .f32⟩
  | .local _ .vmem, ⟨2, _⟩ => ⟨S32x1024, .f32⟩
  | .local _ .vmem, ⟨3, _⟩ => ⟨S32x1x32, .f32⟩
  | .local _ .vmem, ⟨4, _⟩ => ⟨S32x1x32, .f32⟩
  | .local _ .vmem, ⟨5, _⟩ => ⟨S32x1x32, .f32⟩
  | .local _ .vmem, ⟨6, _⟩ => ⟨S32x1x32, .f32⟩
  | .local _ .vmem, ⟨7, _⟩ => ⟨S32x1024x32, .f32⟩
  | .local _ .vmem, ⟨8, _⟩ => ⟨S32x1024x32, .f32⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_cst_0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst_1 : Ref sig .tc := ⟨.hbm, 25, rfl⟩
abbrev main_v7 : Ref sig .tc := ⟨.hbm, 26, rfl⟩
abbrev main_cst_2 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst_3 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_4 : Ref sig .tc := ⟨.hbm, 58, rfl⟩
abbrev main_v37 : Ref sig .tc := ⟨.hbm, 59, rfl⟩
abbrev main_v38 : Ref sig .tc := ⟨.hbm, 60, rfl⟩
abbrev main_cst_5 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_6 : Ref sig .tc := ⟨.hbm, 66, rfl⟩
abbrev main_v43 : Ref sig .tc := ⟨.hbm, 67, rfl⟩
abbrev main_v44 : Ref sig .tc := ⟨.hbm, 68, rfl⟩
abbrev main_cst_7 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_8 : Ref sig .tc := ⟨.hbm, 75, rfl⟩
abbrev main_v50 : Ref sig .tc := ⟨.hbm, 76, rfl⟩
abbrev main_v51 : Ref sig .tc := ⟨.hbm, 77, rfl⟩
abbrev main_cst_9 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_10 : Ref sig .tc := ⟨.hbm, 91, rfl⟩
abbrev main_v64 : Ref sig .tc := ⟨.hbm, 92, rfl⟩
abbrev main_cst_11 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_cst_12 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_cst_13 : Ref sig .tc := ⟨.hbm, 112, rfl⟩
abbrev main_v82 : Ref sig .tc := ⟨.hbm, 113, rfl⟩
abbrev main_v83 : Ref sig .tc := ⟨.hbm, 114, rfl⟩
abbrev main_cst_14 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1024x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x1x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x1x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x1024x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S2048x256 : S_.BroadcastsInDim S2048x256 (![] : Fin 0 → Fin S2048x256.rank)
  transposes_S1024x256_S256x1024_1_0 : S1024x256.Transposes [1, 0] S256x1024
  bcast_S1024_S1x1024_1 : S1024.BroadcastsInDim S1x1024 (![1] : Fin 1 → Fin S1x1024.rank)
  bcast_S1x1024_S2048x1024_0_1 : S1x1024.BroadcastsInDim S2048x1024 (![0, 1] : Fin 2 → Fin S2048x1024.rank)
  reducesTo_S2048x1024_S2048_d1 : S2048x1024.ReducesTo [1] S2048
  h_S_ : 0 < S_.numel
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x1024_0_1 : S2048x1.BroadcastsInDim S2048x1024 (![0, 1] : Fin 2 → Fin S2048x1024.rank)
  concatenates_S2048x256_S2048x32_S2048x288_d1 : Shape.Concatenates [S2048x256, S2048x32] S2048x288 1
  transposes_S1024x288_S288x1024_1_0 : S1024x288.Transposes [1, 0] S288x1024
  slices_S2048x1024_S2048x256_0_0 : S2048x1024.Slices ![0, 0] S2048x256
  slices_S2048x1024_S2048x256_0_256 : S2048x1024.Slices ![0, 256] S2048x256
  slices_S2048x1024_S2048x256_0_512 : S2048x1024.Slices ![0, 512] S2048x256
  slices_S2048x1024_S2048x256_0_768 : S2048x1024.Slices ![0, 768] S2048x256
  transposes_S32x256_S256x32_1_0 : S32x256.Transposes [1, 0] S256x32
  bcast_S32_S1x32_1 : S32.BroadcastsInDim S1x32 (![1] : Fin 1 → Fin S1x32.rank)
  bcast_S1x32_S2048x32_0_1 : S1x32.BroadcastsInDim S2048x32 (![0, 1] : Fin 2 → Fin S2048x32.rank)
  bcast_S_S2048x32 : S_.BroadcastsInDim S2048x32 (![] : Fin 0 → Fin S2048x32.rank)
  transposes_S256x288_S288x256_1_0 : S256x288.Transposes [1, 0] S288x256
  bcast_S256_S1x256_1 : S256.BroadcastsInDim S1x256 (![1] : Fin 1 → Fin S1x256.rank)
  bcast_S1x256_S2048x256_0_1 : S1x256.BroadcastsInDim S2048x256 (![0, 1] : Fin 2 → Fin S2048x256.rank)
  bcast_S2048x32_S2048x1x32_0_2 : S2048x32.BroadcastsInDim S2048x1x32 (![0, 2] : Fin 2 → Fin S2048x1x32.rank)
  inb_S1024x32_S1024x32_0_0 : ∀ a, (![0, 0] : Fin 2 → Nat) a + S1024x32.size a ≤ S1024x32.size a
  h_S1024x32 : 0 < S1024x32.numel
  inb_S32x1024_S32x1024_0_0 : ∀ a, (![0, 0] : Fin 2 → Nat) a + S32x1024.size a ≤ S32x1024.size a
  h_S32x1024 : 0 < S32x1024.numel
  shapeCasts_S32x1024_S32x1024 : S32x1024.ShapeCasts S32x1024
  shapeCasts_S32x1024_S32x1024x1 : S32x1024.ShapeCasts S32x1024x1
  inb_S32x1x32_S32x1x32_0_0_0 : ∀ a, (![0, 0, 0] : Fin 3 → Nat) a + S32x1x32.size a ≤ S32x1x32.size a
  h_S32x1x32 : 0 < S32x1x32.numel
  shapeCasts_S32x1x32_S32x1x32 : S32x1x32.ShapeCasts S32x1x32
  broadcasts_S32x1024x1_S32x1024x32 : S32x1024x1.Broadcasts S32x1024x32
  broadcasts_S32x1x32_S32x1024x32 : S32x1x32.Broadcasts S32x1024x32
  shapeCasts_S1024x32_S1x1024x32 : S1024x32.ShapeCasts S1x1024x32
  broadcasts_S1x1024x32_S32x1024x32 : S1x1024x32.Broadcasts S32x1024x32
  inb_S32x1024x32_S32x1024x32_0_0_0 : ∀ a, (![0, 0, 0] : Fin 3 → Nat) a + S32x1024x32.size a ≤ S32x1024x32.size a
  h_S32x1024x32 : 0 < S32x1024x32.numel
  dot_S2048x256_S256x1024_S2048x1024_1_0_0_1_n_n_wf : DotDims.WF S2048x256 S256x1024 S2048x1024 [1] [0] [0] [1] [] []
  dot_S2048x1024_S1024x32_S2048x32_1_0_0_1_n_n_wf : DotDims.WF S2048x1024 S1024x32 S2048x32 [1] [0] [0] [1] [] []
  dot_S2048x288_S288x1024_S2048x1024_1_0_0_1_n_n_wf : DotDims.WF S2048x288 S288x1024 S2048x1024 [1] [0] [0] [1] [] []
  dot_S2048x256_S256x32_S2048x32_1_0_0_1_n_n_wf : DotDims.WF S2048x256 S256x32 S2048x32 [1] [0] [0] [1] [] []
  dot_S2048x288_S288x256_S2048x256_1_0_0_1_n_n_wf : DotDims.WF S2048x288 S288x256 S2048x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x32.size a ≤ S1024x32.size a
  hwx0_0 : ∀ i : grid0.Coords, EltTy.bits .f32 = 32 ∨ (Rect.block (s := S1024x32) S1024x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x1024.size a ≤ S2048x1024.size a
  hwx0_1 : ∀ i : grid0.Coords, EltTy.bits .f32 = 32 ∨ (Rect.block (s := S2048x1024) S32x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x1x32.size a ≤ S2048x1x32.size a
  hwx0_2 : ∀ i : grid0.Coords, EltTy.bits .f32 = 32 ∨ (Rect.block (s := S2048x1x32) S32x1x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x1x32.size a ≤ S2048x1x32.size a
  hwx0_3 : ∀ i : grid0.Coords, EltTy.bits .f32 = 32 ∨ (Rect.block (s := S2048x1x32) S32x1x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32x1024x32.size a ≤ S2048x1024x32.size a
  hwx0_4 : ∀ i : grid0.Coords, EltTy.bits .f32 = 32 ∨ (Rect.block (s := S2048x1024x32) S32x1024x32.size (cc0_transform_4 i) (hinb0_4 i)).WholeWords (EltTy.packing .f32)

variable [Facts₀]

def dot_S2048x256_S256x1024_S2048x1024_1_0_0_1_n_n : DotDims S2048x256 S256x1024 S2048x1024 where
  lhsContracting := [1]
  rhsContracting := [0]
  lhsNonContracting := [0]
  rhsNonContracting := [1]
  lhsBatch := []
  rhsBatch := []
  wf := dot_S2048x256_S256x1024_S2048x1024_1_0_0_1_n_n_wf
def dot_S2048x1024_S1024x32_S2048x32_1_0_0_1_n_n : DotDims S2048x1024 S1024x32 S2048x32 where
  lhsContracting := [1]
  rhsContracting := [0]
  lhsNonContracting := [0]
  rhsNonContracting := [1]
  lhsBatch := []
  rhsBatch := []
  wf := dot_S2048x1024_S1024x32_S2048x32_1_0_0_1_n_n_wf
def dot_S2048x288_S288x1024_S2048x1024_1_0_0_1_n_n : DotDims S2048x288 S288x1024 S2048x1024 where
  lhsContracting := [1]
  rhsContracting := [0]
  lhsNonContracting := [0]
  rhsNonContracting := [1]
  lhsBatch := []
  rhsBatch := []
  wf := dot_S2048x288_S288x1024_S2048x1024_1_0_0_1_n_n_wf
def dot_S2048x256_S256x32_S2048x32_1_0_0_1_n_n : DotDims S2048x256 S256x32 S2048x32 where
  lhsContracting := [1]
  rhsContracting := [0]
  lhsNonContracting := [0]
  rhsNonContracting := [1]
  lhsBatch := []
  rhsBatch := []
  wf := dot_S2048x256_S256x32_S2048x32_1_0_0_1_n_n_wf
def dot_S2048x288_S288x256_S2048x256_1_0_0_1_n_n : DotDims S2048x288 S288x256 S2048x256 where
  lhsContracting := [1]
  rhsContracting := [0]
  lhsNonContracting := [0]
  rhsNonContracting := [1]
  lhsBatch := []
  rhsBatch := []
  wf := dot_S2048x288_S288x256_S2048x256_1_0_0_1_n_n_wf

abbrev win0_0 : Pipeline.Window sig grid0 :=
  Pipeline.Window.ofSpec (Memref.whole main_arg1) S1024x32.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v74) S32x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v98) S32x1x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v99) S32x1x32.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v100) S32x1024x32.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2048x256 : Shape := ⟨2, ![2048, 256]⟩
abbrev S1024x32 : Shape := ⟨2, ![1024, 32]⟩
abbrev S1024x256 : Shape := ⟨2, ![1024, 256]⟩
abbrev S1024 : Shape := ⟨1, ![1024]⟩
abbrev S1024x288 : Shape := ⟨2, ![1024, 288]⟩
abbrev S32x256 : Shape := ⟨2, ![32, 256]⟩
abbrev S32 : Shape := ⟨1, ![32]⟩
abbrev S256x288 : Shape := ⟨2, ![256, 288]⟩
abbrev S256 : Shape := ⟨1, ![256]⟩
abbrev S_ : Shape := ⟨0, ![]⟩
abbrev S256x1024 : Shape := ⟨2, ![256, 1024]⟩
abbrev S2048x1024 : Shape := ⟨2, ![2048, 1024]⟩
abbrev S1x1024 : Shape := ⟨2, ![1, 1024]⟩
abbrev S2048 : Shape := ⟨1, ![2048]⟩
abbrev S2048x1 : Shape := ⟨2, ![2048, 1]⟩
abbrev S2048x32 : Shape := ⟨2, ![2048, 32]⟩
abbrev S2048x288 : Shape := ⟨2, ![2048, 288]⟩
abbrev S288x1024 : Shape := ⟨2, ![288, 1024]⟩
abbrev S256x32 : Shape := ⟨2, ![256, 32]⟩
abbrev S1x32 : Shape := ⟨2, ![1, 32]⟩
abbrev S2048x1024x1 : Shape := ⟨3, ![2048, 1024, 1]⟩
abbrev S2048x1x32 : Shape := ⟨3, ![2048, 1, 32]⟩
abbrev S2048x1024x32 : Shape := ⟨3, ![2048, 1024, 32]⟩
abbrev S1x1024x32 : Shape := ⟨3, ![1, 1024, 32]⟩
abbrev S288x256 : Shape := ⟨2, ![288, 256]⟩
abbrev S1x256 : Shape := ⟨2, ![1, 256]⟩

abbrev nBuf : Space → Nat
  | .hbm => 147
  | .vmem => 0
  | .smem => 0
  | _ => 0

abbrev hbmTy0_0 (i : Nat) : BufTy := match i % 128 with
  | 0 => ⟨S2048x256, .f32⟩
  | 1 => ⟨S1024x32, .f32⟩
  | 2 => ⟨S1024x256, .f32⟩
  | 3 => ⟨S1024, .f32⟩
  | 4 => ⟨S1024x288, .f32⟩
  | 5 => ⟨S1024x256, .f32⟩
  | 6 => ⟨S1024, .f32⟩
  | 7 => ⟨S1024, .f32⟩
  | 8 => ⟨S1024x256, .f32⟩
  | 9 => ⟨S1024, .f32⟩
  | 10 => ⟨S32x256, .f32⟩
  | 11 => ⟨S32, .f32⟩
  | 12 => ⟨S32x256, .f32⟩
  | 13 => ⟨S32, .f32⟩
  | 14 => ⟨S256x288, .f32⟩
  | 15 => ⟨S256, .f32⟩
  | 16 => ⟨S_, .f32⟩
  | 17 => ⟨S2048x256, .f32⟩
  | 18 => ⟨S_, .f32⟩
  | 19 => ⟨S2048x256, .f32⟩
  | 20 => ⟨S256x1024, .f32⟩
  | 21 => ⟨S2048x1024, .f32⟩
  | 22 => ⟨S1x1024, .f32⟩
  | 23 => ⟨S2048x1024, .f32⟩
  | 24 => ⟨S2048x1024, .f32⟩
  | 25 => ⟨S_, .f32⟩
  | 26 => ⟨S2048, .f32⟩
  | 27 => ⟨S_, .f32⟩
  | 28 => ⟨S2048, .f32⟩
  | 29 => ⟨S2048, .f32⟩
  | 30 => ⟨S2048x1, .f32⟩
  | 31 => ⟨S2048x1024, .f32⟩
  | 32 => ⟨S2048x1024, .f32⟩
  | 33 => ⟨S2048x1024, .f32⟩
  | 34 => ⟨S_, .f32⟩
  | 35 => ⟨S2048, .f32⟩
  | 36 => ⟨S2048x1, .f32⟩
  | 37 => ⟨S2048x1024, .f32⟩
  | 38 => ⟨S2048x1024, .f32⟩
  | 39 => ⟨S2048x32, .f32⟩
  | 40 => ⟨S2048x288, .f32⟩
  | 41 => ⟨S288x1024, .f32⟩
  | 42 => ⟨S2048x1024, .f32⟩
  | 43 => ⟨S1x1024, .f32⟩
  | 44 => ⟨S2048x1024, .f32⟩
  | 45 => ⟨S2048x1024, .f32⟩
  | 46 => ⟨S256x1024, .f32⟩
  | 47 => ⟨S2048x1024, .f32⟩
  | 48 => ⟨S2048x1024, .f32⟩
  | 49 => ⟨S1x1024, .f32⟩
  | 50 => ⟨S2048x1024, .f32⟩
  | 51 => ⟨S2048x1024, .f32⟩
  | 52 => ⟨S2048x256, .f32⟩
  | 53 => ⟨S2048x256, .f32⟩
  | 54 => ⟨S2048x256, .f32⟩
  | 55 => ⟨S2048x256, .f32⟩
  | 56 => ⟨S2048x256, .f32⟩
  | 57 => ⟨S2048x256, .f32⟩
  | 58 => ⟨S_, .f32⟩
  | 59 => ⟨S2048x256, .f32⟩
  | 60 => ⟨S2048x256, .f32⟩
  | 61 => ⟨S_, .f32⟩
  | 62 => ⟨S2048x256, .f32⟩
  | 63 => ⟨S2048x256, .f32⟩
  | 64 => ⟨S2048x256, .f32⟩
  | 65 => ⟨S2048x256, .f32⟩
  | 66 => ⟨S_, .f32⟩
  | 67 => ⟨S2048x256, .f32⟩
  | 68 => ⟨S2048x256, .f32⟩
  | 69 => ⟨S_, .f32⟩
  | 70 => ⟨S2048x256, .f32⟩
  | 71 => ⟨S2048x256, .f32⟩
  | 72 => ⟨S2048x256, .f32⟩
  | 73 => ⟨S2048x256, .f32⟩
  | 74 => ⟨S2048x256, .f32⟩
  | 75 => ⟨S_, .f32⟩
  | 76 => ⟨S2048x256, .f32⟩
  | 77 => ⟨S2048x256, .f32⟩
  | 78 => ⟨S_, .f32⟩
  | 79 => ⟨S2048x256, .f32⟩
  | 80 => ⟨S2048x256, .f32⟩
  | 81 => ⟨S2048x256, .f32⟩
  | 82 => ⟨S2048x256, .f32⟩
  | 83 => ⟨S2048x256, .f32⟩
  | 84 => ⟨S2048x256, .f32⟩
  | 85 => ⟨S2048x256, .f32⟩
  | 86 => ⟨S256x1024, .f32⟩
  | 87 => ⟨S2048x1024, .f32⟩
  | 88 => ⟨S1x1024, .f32⟩
  | 89 => ⟨S2048x1024, .f32⟩
  | 90 => ⟨S2048x1024, .f32⟩
  | 91 => ⟨S_, .f32⟩
  | 92 => ⟨S2048, .f32⟩
  | 93 => ⟨S_, .f32⟩
  | 94 => ⟨S2048, .f32⟩
  | 95 => ⟨S2048, .f32⟩
  | 96 => ⟨S2048x1, .f32⟩
  | 97 => ⟨S2048x1024, .f32⟩
  | 98 => ⟨S2048x1024, .f32⟩
  | 99 => ⟨S2048x1024, .f32⟩
  | 100 => ⟨S_, .f32⟩
  | 101 => ⟨S2048, .f32⟩
  | 102 => ⟨S2048x1, .f32⟩
  | 103 => ⟨S2048x1024, .f32⟩
  | 104 => ⟨S2048x1024, .f32⟩
  | 105 => ⟨S256x32, .f32⟩
  | 106 => ⟨S2048x32, .f32⟩
  | 107 => ⟨S1x32, .f32⟩
  | 108 => ⟨S2048x32, .f32⟩
  | 109 => ⟨S2048x32, .f32⟩
  | 110 => ⟨S2048x32, .f32⟩
  | 111 => ⟨S2048x32, .f32⟩
  | 112 => ⟨S_, .f32⟩
  | 113 => ⟨S2048x32, .f32⟩
  | 114 => ⟨S2048x32, .f32⟩
  | 115 => ⟨S_, .f32⟩
  | 116 => ⟨S2048x32, .f32⟩
  | 117 => ⟨S2048x32, .f32⟩
  | 118 => ⟨S256x32, .f32⟩
  | 119 => ⟨S2048x32, .f32⟩
  | 120 => ⟨S1x32, .f32⟩
  | 121 => ⟨S2048x32, .f32⟩
  | 122 => ⟨S2048x32, .f32⟩
  | 123 => ⟨S2048x32, .f32⟩
  | 124 => ⟨S2048x1024x1, .f32⟩
  | 125 => ⟨S2048x1x32, .f32⟩
  | 126 => ⟨S2048x1024x32, .f32⟩
  | 127 => ⟨S2048x1024x32, .f32⟩
  | _ => ⟨S2048x256, .f32⟩

abbrev hbmTy0_1 (i : Nat) : BufTy := match i % 128 with
  | 0 => ⟨S2048x1024x32, .f32⟩
  | 1 => ⟨S2048x1024x1, .f32⟩
  | 2 => ⟨S2048x1x32, .f32⟩
  | 3 => ⟨S2048x1024x32, .f32⟩
  | 4 => ⟨S2048x1024x32, .f32⟩
  | 5 => ⟨S2048x1024x32, .f32⟩
  | 6 => ⟨S1x1024x32, .f32⟩
  | 7 => ⟨S_, .f32⟩
  | 8 => ⟨S2048x1024x32, .f32⟩
  | 9 => ⟨S2048x1024x32, .f32⟩
  | 10 => ⟨S2048x1024x32, .f32⟩
  | 11 => ⟨S2048x1024x32, .f32⟩
  | 12 => ⟨S2048x1024x32, .f32⟩
  | 13 => ⟨S2048x288, .f32⟩
  | 14 => ⟨S288x256, .f32⟩
  | 15 => ⟨S2048x256, .f32⟩
  | 16 => ⟨S1x256, .f32⟩
  | 17 => ⟨S2048x256, .f32⟩
  | 18 => ⟨S2048x256, .f32⟩
  | _ => ⟨S2048x256, .f32⟩

abbrev hbmTy (i : Nat) : BufTy := match i / 128 with
  | 0 => hbmTy0_0 i
  | 1 => hbmTy0_1 i
  | _ => ⟨S2048x256, .f32⟩

abbrev bufTy : (tb : Table) → Fin (tcTables nBuf tb) → BufTy
  | .hbm, ⟨i, _⟩ => hbmTy i
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_cst_0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst_1 : Ref sig .tc := ⟨.hbm, 25, rfl⟩
abbrev main_v7 : Ref sig .tc := ⟨.hbm, 26, rfl⟩
abbrev main_cst_2 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst_3 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_4 : Ref sig .tc := ⟨.hbm, 58, rfl⟩
abbrev main_v37 : Ref sig .tc := ⟨.hbm, 59, rfl⟩
abbrev main_v38 : Ref sig .tc := ⟨.hbm, 60, rfl⟩
abbrev main_cst_5 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_6 : Ref sig .tc := ⟨.hbm, 66, rfl⟩
abbrev main_v43 : Ref sig .tc := ⟨.hbm, 67, rfl⟩
abbrev main_v44 : Ref sig .tc := ⟨.hbm, 68, rfl⟩
abbrev main_cst_7 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_8 : Ref sig .tc := ⟨.hbm, 75, rfl⟩
abbrev main_v50 : Ref sig .tc := ⟨.hbm, 76, rfl⟩
abbrev main_v51 : Ref sig .tc := ⟨.hbm, 77, rfl⟩
abbrev main_cst_9 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_10 : Ref sig .tc := ⟨.hbm, 91, rfl⟩
abbrev main_v64 : Ref sig .tc := ⟨.hbm, 92, rfl⟩
abbrev main_cst_11 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_cst_12 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_cst_13 : Ref sig .tc := ⟨.hbm, 112, rfl⟩
abbrev main_v82 : Ref sig .tc := ⟨.hbm, 113, rfl⟩
abbrev main_v83 : Ref sig .tc := ⟨.hbm, 114, rfl⟩
abbrev main_cst_14 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_cst_15 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩

abbrev nD : Nat := 1
abbrev τ : Topo := Topo.v7x

variable {F : FTy → Type} [FloatOps F]

class Facts₀ : Prop where
  bcast_S_S2048x256 : S_.BroadcastsInDim S2048x256 (![] : Fin 0 → Fin S2048x256.rank)
  transposes_S1024x256_S256x1024_1_0 : S1024x256.Transposes [1, 0] S256x1024
  bcast_S1024_S1x1024_1 : S1024.BroadcastsInDim S1x1024 (![1] : Fin 1 → Fin S1x1024.rank)
  bcast_S1x1024_S2048x1024_0_1 : S1x1024.BroadcastsInDim S2048x1024 (![0, 1] : Fin 2 → Fin S2048x1024.rank)
  reducesTo_S2048x1024_S2048_d1 : S2048x1024.ReducesTo [1] S2048
  h_S_ : 0 < S_.numel
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x1024_0_1 : S2048x1.BroadcastsInDim S2048x1024 (![0, 1] : Fin 2 → Fin S2048x1024.rank)
  concatenates_S2048x256_S2048x32_S2048x288_d1 : Shape.Concatenates [S2048x256, S2048x32] S2048x288 1
  transposes_S1024x288_S288x1024_1_0 : S1024x288.Transposes [1, 0] S288x1024
  slices_S2048x1024_S2048x256_0_0 : S2048x1024.Slices ![0, 0] S2048x256
  slices_S2048x1024_S2048x256_0_256 : S2048x1024.Slices ![0, 256] S2048x256
  slices_S2048x1024_S2048x256_0_512 : S2048x1024.Slices ![0, 512] S2048x256
  slices_S2048x1024_S2048x256_0_768 : S2048x1024.Slices ![0, 768] S2048x256
  transposes_S32x256_S256x32_1_0 : S32x256.Transposes [1, 0] S256x32
  bcast_S32_S1x32_1 : S32.BroadcastsInDim S1x32 (![1] : Fin 1 → Fin S1x32.rank)
  bcast_S1x32_S2048x32_0_1 : S1x32.BroadcastsInDim S2048x32 (![0, 1] : Fin 2 → Fin S2048x32.rank)
  bcast_S_S2048x32 : S_.BroadcastsInDim S2048x32 (![] : Fin 0 → Fin S2048x32.rank)
  bcast_S2048x1024_S2048x1024x1_0_1 : S2048x1024.BroadcastsInDim S2048x1024x1 (![0, 1] : Fin 2 → Fin S2048x1024x1.rank)
  bcast_S2048x32_S2048x1x32_0_2 : S2048x32.BroadcastsInDim S2048x1x32 (![0, 2] : Fin 2 → Fin S2048x1x32.rank)
  bcast_S2048x1024x1_S2048x1024x32_0_1_2 : S2048x1024x1.BroadcastsInDim S2048x1024x32 (![0, 1, 2] : Fin 3 → Fin S2048x1024x32.rank)
  bcast_S2048x1x32_S2048x1024x32_0_1_2 : S2048x1x32.BroadcastsInDim S2048x1024x32 (![0, 1, 2] : Fin 3 → Fin S2048x1024x32.rank)
  bcast_S1024x32_S1x1024x32_1_2 : S1024x32.BroadcastsInDim S1x1024x32 (![1, 2] : Fin 2 → Fin S1x1024x32.rank)
  bcast_S_S2048x1024x32 : S_.BroadcastsInDim S2048x1024x32 (![] : Fin 0 → Fin S2048x1024x32.rank)
  bcast_S1x1024x32_S2048x1024x32_0_1_2 : S1x1024x32.BroadcastsInDim S2048x1024x32 (![0, 1, 2] : Fin 3 → Fin S2048x1024x32.rank)
  transposes_S256x288_S288x256_1_0 : S256x288.Transposes [1, 0] S288x256
  bcast_S256_S1x256_1 : S256.BroadcastsInDim S1x256 (![1] : Fin 1 → Fin S1x256.rank)
  bcast_S1x256_S2048x256_0_1 : S1x256.BroadcastsInDim S2048x256 (![0, 1] : Fin 2 → Fin S2048x256.rank)
  dot_S2048x256_S256x1024_S2048x1024_1_0_0_1_n_n_wf : DotDims.WF S2048x256 S256x1024 S2048x1024 [1] [0] [0] [1] [] []
  dot_S2048x1024_S1024x32_S2048x32_1_0_0_1_n_n_wf : DotDims.WF S2048x1024 S1024x32 S2048x32 [1] [0] [0] [1] [] []
  dot_S2048x288_S288x1024_S2048x1024_1_0_0_1_n_n_wf : DotDims.WF S2048x288 S288x1024 S2048x1024 [1] [0] [0] [1] [] []
  dot_S2048x256_S256x32_S2048x32_1_0_0_1_n_n_wf : DotDims.WF S2048x256 S256x32 S2048x32 [1] [0] [0] [1] [] []
  dot_S2048x288_S288x256_S2048x256_1_0_0_1_n_n_wf : DotDims.WF S2048x288 S288x256 S2048x256 [1] [0] [0] [1] [] []

variable [Facts₀]

def dot_S2048x256_S256x1024_S2048x1024_1_0_0_1_n_n : DotDims S2048x256 S256x1024 S2048x1024 where
  lhsContracting := [1]
  rhsContracting := [0]
  lhsNonContracting := [0]
  rhsNonContracting := [1]
  lhsBatch := []
  rhsBatch := []
  wf := dot_S2048x256_S256x1024_S2048x1024_1_0_0_1_n_n_wf
def dot_S2048x1024_S1024x32_S2048x32_1_0_0_1_n_n : DotDims S2048x1024 S1024x32 S2048x32 where
  lhsContracting := [1]
  rhsContracting := [0]
  lhsNonContracting := [0]
  rhsNonContracting := [1]
  lhsBatch := []
  rhsBatch := []
  wf := dot_S2048x1024_S1024x32_S2048x32_1_0_0_1_n_n_wf
def dot_S2048x288_S288x1024_S2048x1024_1_0_0_1_n_n : DotDims S2048x288 S288x1024 S2048x1024 where
  lhsContracting := [1]
  rhsContracting := [0]
  lhsNonContracting := [0]
  rhsNonContracting := [1]
  lhsBatch := []
  rhsBatch := []
  wf := dot_S2048x288_S288x1024_S2048x1024_1_0_0_1_n_n_wf
def dot_S2048x256_S256x32_S2048x32_1_0_0_1_n_n : DotDims S2048x256 S256x32 S2048x32 where
  lhsContracting := [1]
  rhsContracting := [0]
  lhsNonContracting := [0]
  rhsNonContracting := [1]
  lhsBatch := []
  rhsBatch := []
  wf := dot_S2048x256_S256x32_S2048x32_1_0_0_1_n_n_wf
def dot_S2048x288_S288x256_S2048x256_1_0_0_1_n_n : DotDims S2048x288 S288x256 S2048x256 where
  lhsContracting := [1]
  rhsContracting := [0]
  lhsNonContracting := [0]
  rhsNonContracting := [1]
  lhsBatch := []
  rhsBatch := []
  wf := dot_S2048x288_S288x256_S2048x256_1_0_0_1_n_n_wf

class Facts : Prop extends Facts₀ where

variable [Facts]
-- ==== Proof.WriteSpec.lean ====
/-
  The memory write-back of the attention cell, as ONE function of four arrays, index by index.

  For a batch row `b`, a memory slot `r` and a feature `d`,

      written[b, r, d] = mem[r, d] · (1 − w[b, r] · erase[b, 0, d]) + w[b, r] · add[b, 0, d],

  where `mem` is the memory matrix (1024 slots of 32 features), `w` the write weights (one row of 1024 slot weights
  per batch row), and `erase`, `add` the erase and add vectors, each carried with a unit middle axis. Every slot of
  every batch row is first attenuated feature by feature by its weighted erase vector and then receives its weighted
  add vector. The operations are kept in exactly this order — one subtraction from the word of 1.0, three products, one
  sum — so that both programs' results are this term literally and no law of the extended reals is needed.
  The definition is stated for any float instance.
-/
import Idealize.ShloMosaic.Lib.ValueIdx

noncomputable section

namespace Cert.MemoryWrite

open Idealize.ShloMosaic Idealize.ShloMosaic.ValueIdx

variable {F : FTy → Type} [FloatOps F]

/-- The memory matrix: 1024 slots, 32 features. -/
abbrev SMem : Shape := ⟨2, ![1024, 32]⟩
/-- The write weights: 2048 batch rows, 1024 slots. -/
abbrev SWeights : Shape := ⟨2, ![2048, 1024]⟩
/-- An erase or add vector per batch row, with a unit middle axis. -/
abbrev SRow : Shape := ⟨3, ![2048, 1, 32]⟩
/-- The written memories: one updated memory matrix per batch row. -/
abbrev SWritten : Shape := ⟨3, ![2048, 1024, 32]⟩

/-- The slot and feature of a written entry, as an index of the memory matrix. -/
abbrev slotOf (i : SWritten.Idx) : SMem.Idx := ix2 (n0 := 1024) (n1 := 32) (i 1) (i 2)
/-- The batch row and slot of a written entry, as an index of the write weights. -/
abbrev weightOf (i : SWritten.Idx) : SWeights.Idx := ix2 (n0 := 2048) (n1 := 1024) (i 0) (i 1)
/-- The batch row and feature of a written entry, as an index of an erase or add vector. -/
abbrev rowOf (i : SWritten.Idx) : SRow.Idx := ix3 (n0 := 2048) (n1 := 1) (n2 := 32) (i 0) 0 (i 2)

/-- The written memories: `mem · (1 − w · erase) + w · add`, entry by entry. -/
def written (mem : SMem.Idx → Elt F .f32) (w : SWeights.Idx → Elt F .f32) (erase add : SRow.Idx → Elt F .f32) :
    SWritten.Idx → Elt F .f32 := fun i =>
  FloatOps.addf
    (FloatOps.mulf (mem (slotOf i))
      (FloatOps.subf (FloatOps.ofBits .f32 0x3F800000#32) (FloatOps.mulf (w (weightOf i)) (erase (rowOf i)))))
    (FloatOps.mulf (w (weightOf i)) (add (rowOf i)))

theorem written_apply (mem : SMem.Idx → Elt F .f32) (w : SWeights.Idx → Elt F .f32) (erase add : SRow.Idx → Elt F .f32)
    (i : SWritten.Idx) :
    written mem w erase add i
      = FloatOps.addf
          (FloatOps.mulf (mem (slotOf i))
            (FloatOps.subf (FloatOps.ofBits .f32 0x3F800000#32) (FloatOps.mulf (w (weightOf i)) (erase (rowOf i)))))
          (FloatOps.mulf (w (weightOf i)) (add (rowOf i))) := rfl

end Cert.MemoryWrite

end
-- ==== Proof.KernelArray.lean ====
/-
  From blocks to the array: what the pipelined kernel leaves in the written-memories array.

  The kernel walks 64 grid points. At point `t` it stages rows `32·t … 32·t + 31` of the write weights and of the
  erase and add vectors, together with the whole memory matrix, and writes back rows `32·t … 32·t + 31` of the
  result. Inside a block, the entry at (row `p`, slot `r`, feature `d`) is
  `mem[r, d] · (1 − w[p, r] · erase[p, 0, d]) + w[p, r] · add[p, 0, d]` of the staged blocks. Since every staged
  block sits at the same row offset `32·t` as the output block (and the memory matrix at offset zero), that entry is
  the entry `(32·t + p, r, d)` of `MemoryWrite.written` of the whole arrays; and since the 64 row blocks tile the
  2048 rows, the array ends holding `written` everywhere.
-/
import proofs.«134862_j3152505996096_2_alg».proof.Proof.Gen.KernelIdeal.Value
import proofs.«134862_j3152505996096_2_alg».proof.Proof.WriteSpec

set_option maxRecDepth 16384

noncomputable section

namespace Cert.KernelIdeal.Written

open Cert.KernelIdeal Cert.KernelIdeal.Gen Cert.KernelIdeal.Value Cert.MemoryWrite
open Idealize.ShloMosaic Idealize.ShloMosaic.TcCoe Idealize.SL.Sem Idealize.ShloMosaic.ValueIdx
open Idealize.ShloMosaic.Pipeline (Dat)

variable {F : FTy → Type} [FloatOps F]
variable (m : (ℓ : Loc nD τ sig) → Buf (Elt F) ℓ) (ρ : Dev nD → PrngReg)

theorem origin2 : (![0, 0] : Fin 2 → Nat) = fun _ => 0 := funext fun a => by fin_cases a <;> rfl
theorem origin3 : (![0, 0, 0] : Fin 3 → Nat) = fun _ => 0 := funext fun a => by fin_cases a <;> rfl

/-- The block index maps over the 64 grid points: the memory matrix is staged whole, the weights and the erase and add
    vectors move along the batch axis with the output, whose block index is the point itself. -/
theorem block_indices : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0 :=
  (by decide +kernel : ∀ t : Fin grid0.N, _)

/-- WHAT POINT `t` WRITES BACK is block `t` of `written` of the arrays as the region finds them. -/
theorem flushed_eq (c : Dev nD) (t : Fin cfg0.N) :
    (dats m 0 c).flushed 4 t = ((cfg0.win 4).blk t).view.read (Elt F)
      (written (V m c main_arg1) (V m c main_v74) (V m c main_v98) (V m c main_v99)) := by
  rw [flushed4]
  unfold out0_4
  simp only [View.ld_unit_zero (S := S1024x32) origin2, View.ld_unit_zero (S := S32x1024) origin2,
    View.ld_unit_zero (S := S32x1x32) origin3]
  obtain ⟨a0, a1, b0, b1, c0, c1, c2, d0, d1, d2, e0, e1, e2⟩ := block_indices t
  funext j
  have hj0 : (j 0).val < 32 := (j 0).isLt
  have hj1 : (j 1).val < 1024 := (j 1).isLt
  have hj2 : (j 2).val < 32 := (j 2).isLt
  refine (canon4_eq _ _ _ _ j).trans ?_
  show FloatOps.addf
      (FloatOps.mulf (V m c main_arg1 (((cfg0.win 0).blk t).view.emb (ix4_0 j)))
        (FloatOps.subf (Scalar.ofBits .f32 0x3F800000#32)
          (FloatOps.mulf (V m c main_v74 (((cfg0.win 1).blk t).view.emb (ix4_1 j)))
            (V m c main_v98 (((cfg0.win 2).blk t).view.emb (ix4_2 j))))))
      (FloatOps.mulf (V m c main_v74 (((cfg0.win 1).blk t).view.emb (ix4_3 j)))
        (V m c main_v99 (((cfg0.win 3).blk t).view.emb (ix4_4 j))))
    = FloatOps.addf
      (FloatOps.mulf (V m c main_arg1 (slotOf (((cfg0.win 4).blk t).view.emb j)))
        (FloatOps.subf (FloatOps.ofBits .f32 0x3F800000#32)
          (FloatOps.mulf (V m c main_v74 (weightOf (((cfg0.win 4).blk t).view.emb j)))
            (V m c main_v98 (rowOf (((cfg0.win 4).blk t).view.emb j))))))
      (FloatOps.mulf (V m c main_v74 (weightOf (((cfg0.win 4).blk t).view.emb j)))
        (V m c main_v99 (rowOf (((cfg0.win 4).blk t).view.emb j))))
  have h0 : ((cfg0.win 0).blk t).view.emb (ix4_0 j) = slotOf (((cfg0.win 4).blk t).view.emb j) := by
    funext a; apply Fin.ext
    match a with
    | ⟨0, _⟩ => show win0_0.index t (0 : Fin 2) * 1024 + 1 * (j 1).val = win0_4.index t (1 : Fin 3) * 1024 + 1 * (j 1).val; omega
    | ⟨1, _⟩ => show win0_0.index t (1 : Fin 2) * 32 + 1 * (j 2).val = win0_4.index t (2 : Fin 3) * 32 + 1 * (j 2).val; omega
  have h1 : ((cfg0.win 1).blk t).view.emb (ix4_1 j) = weightOf (((cfg0.win 4).blk t).view.emb j) := by
    funext a; apply Fin.ext
    match a with
    | ⟨0, _⟩ => show win0_1.index t (0 : Fin 2) * 32 + 1 * (j 0).val = win0_4.index t (0 : Fin 3) * 32 + 1 * (j 0).val; omega
    | ⟨1, _⟩ => show win0_1.index t (1 : Fin 2) * 1024 + 1 * (j 1).val = win0_4.index t (1 : Fin 3) * 1024 + 1 * (j 1).val; omega
  have h2 : ((cfg0.win 2).blk t).view.emb (ix4_2 j) = rowOf (((cfg0.win 4).blk t).view.emb j) := by
    funext a; apply Fin.ext
    match a with
    | ⟨0, _⟩ => show win0_2.index t (0 : Fin 3) * 32 + 1 * (j 0).val = win0_4.index t (0 : Fin 3) * 32 + 1 * (j 0).val; omega
    | ⟨1, _⟩ => show win0_2.index t (1 : Fin 3) * 1 + 1 * 0 = 0; omega
    | ⟨2, _⟩ => show win0_2.index t (2 : Fin 3) * 32 + 1 * (j 2).val = win0_4.index t (2 : Fin 3) * 32 + 1 * (j 2).val; omega
  have h3 : ((cfg0.win 3).blk t).view.emb (ix4_4 j) = rowOf (((cfg0.win 4).blk t).view.emb j) := by
    funext a; apply Fin.ext
    match a with
    | ⟨0, _⟩ => show win0_3.index t (0 : Fin 3) * 32 + 1 * (j 0).val = win0_4.index t (0 : Fin 3) * 32 + 1 * (j 0).val; omega
    | ⟨1, _⟩ => show win0_3.index t (1 : Fin 3) * 1 + 1 * 0 = 0; omega
    | ⟨2, _⟩ => show win0_3.index t (2 : Fin 3) * 32 + 1 * (j 2).val = win0_4.index t (2 : Fin 3) * 32 + 1 * (j 2).val; omega
  rw [h0, h1, h2, h3]

/-- An index of the array is in point `t`'s block iff each coordinate is in the block's range on its axis. -/
theorem mem_block (t : Fin cfg0.N) (i : S2048x1024x32.Idx) :
    i ∈ ((cfg0.win 4).blk t).view.set ↔ ∀ a : Fin 3, win0_4.index t a * S32x1024x32.size a ≤ (i a).val
      ∧ (i a).val < win0_4.index t a * S32x1024x32.size a + S32x1024x32.size a := by
  show i ∈ ((View.whole main_v100).slice (win0_4.rect t)).set ↔ _
  rw [View.set_slice_whole, Rect.mem_set_unit]
  exact Iff.rfl

/-- The 64 row blocks tile the array: entry `(b, r, d)` lies in the block of point `b / 32`. -/
theorem covered (i : S2048x1024x32.Idx) :
    ∃ t : Fin cfg0.N, (cfg0.win 4).flush t = true ∧ i ∈ ((cfg0.win 4).blk t).view.set := by
  have hi0 : (i 0).val < 2048 := (i 0).isLt
  have hi1 : (i 1).val < 1024 := (i 1).isLt
  have hi2 : (i 2).val < 32 := (i 2).isLt
  have hN : (i 0).val / 32 < cfg0.N := by rw [show cfg0.N = 64 from N_0]; omega
  refine ⟨⟨(i 0).val / 32, hN⟩, flush0_4 _, ?_⟩
  obtain ⟨-, -, -, -, -, -, -, -, -, -, e0, e1, e2⟩ := block_indices ⟨(i 0).val / 32, hN⟩
  rw [mem_block]
  intro a
  match a with
  | ⟨0, _⟩ => show win0_4.index ⟨(i 0).val / 32, hN⟩ (0 : Fin 3) * 32 ≤ (i 0).val ∧ (i 0).val < win0_4.index ⟨(i 0).val / 32, hN⟩ (0 : Fin 3) * 32 + 32; rw [e0]; show (i 0).val / 32 * 32 ≤ (i 0).val ∧ (i 0).val < (i 0).val / 32 * 32 + 32; omega
  | ⟨1, _⟩ => show win0_4.index ⟨(i 0).val / 32, hN⟩ (1 : Fin 3) * 1024 ≤ (i 1).val ∧ (i 1).val < win0_4.index ⟨(i 0).val / 32, hN⟩ (1 : Fin 3) * 1024 + 1024; omega
  | ⟨2, _⟩ => show win0_4.index ⟨(i 0).val / 32, hN⟩ (2 : Fin 3) * 32 ≤ (i 2).val ∧ (i 2).val < win0_4.index ⟨(i 0).val / 32, hN⟩ (2 : Fin 3) * 32 + 32; omega

/-- THE ARRAY after the run is `written` of the arrays the region found. -/
theorem final (c : Dev nD) :
    (dats m 0 c).arrAt 4 cfg0.N = written (V m c main_arg1) (V m c main_v74) (V m c main_v98) (V m c main_v99) :=
  (dats m 0 c).arrAt_eq_of_cover 4 _ (fun t _ => flushed_eq m c t) covered

end Cert.KernelIdeal.Written

end
-- ==== Proof.ReferenceTail.lean ====
/-
  The reference's last operations, read at an index.

  The reference forms the written memories with whole-array operations: the write weights `w` get a trailing unit
  axis and are repeated along the 32 features; the erase and add vectors (already carrying a unit middle axis) are
  repeated along the 1024 slots; the memory matrix gets a leading unit axis and is repeated along the 2048 batch rows;
  the word of 1.0 is repeated everywhere; then `mem · (1 − w · erase) + w · add` is taken entry by entry.
  Reading each repetition at an entry `(b, r, d)` — a repeated array at an index is the operand at the coordinates of
  its own axes, `0` on its unit axes — gives `mem[r, d]`, `w[b, r]`, `erase[b, 0, d]`, `add[b, 0, d]`, so the whole
  term is `MemoryWrite.written`. Stated for arbitrary arrays and any float instance.
-/
import proofs.«134862_j3152505996096_2_alg».proof.Proof.Gen.ReferenceIdeal
import proofs.«134862_j3152505996096_2_alg».proof.Proof.WriteSpec
import Idealize.ShloMosaic.Lib.Pipeline.Value
import Idealize.ShloMosaic.Lib.IdealHost

noncomputable section

namespace Cert.ReferenceIdeal.Tail

open Cert.ReferenceIdeal Cert.ReferenceIdeal.Gen Cert.MemoryWrite
open Idealize.ShloMosaic Idealize.ShloMosaic.ValueIdx

variable {F : FTy → Type} [FloatOps F]

/-- The memory matrix repeated along the batch rows, at an entry, is the memory matrix at the entry's slot and feature. -/
theorem mem_at (mem : FVec F S1024x32 .f32) (i : S2048x1024x32.Idx) :
    broadcastInDim S2048x1024x32 ![0, 1, 2] bcast_S1x1024x32_S2048x1024x32_0_1_2
        (broadcastInDim S1x1024x32 ![1, 2] bcast_S1024x32_S1x1024x32_1_2 mem) i = mem (slotOf i) := by
  refine (broadcastInDim_apply _ _ _ i (ix3 (n0 := 1) (n1 := 1024) (n2 := 32) 0 (i 1) (i 2)) (fun a => match a with
    | ⟨0, _⟩ => by show 0 = (if (1 : Nat) = 1 then 0 else (i 0).val); rw [if_pos rfl]
    | ⟨1, _⟩ => by show (i 1).val = (if (1024 : Nat) = 1 then 0 else (i 1).val); rw [if_neg (by decide)]
    | ⟨2, _⟩ => by show (i 2).val = (if (32 : Nat) = 1 then 0 else (i 2).val); rw [if_neg (by decide)])).trans ?_
  exact broadcastInDim_apply _ _ _ _ (slotOf i) (fun a => match a with
    | ⟨0, _⟩ => by show (i 1).val = (if (1024 : Nat) = 1 then 0 else (i 1).val); rw [if_neg (by decide)]
    | ⟨1, _⟩ => by show (i 2).val = (if (32 : Nat) = 1 then 0 else (i 2).val); rw [if_neg (by decide)])

/-- The write weights repeated along the features, at an entry, are the weight of the entry's batch row and slot. -/
theorem weight_at (w : FVec F S2048x1024 .f32) (i : S2048x1024x32.Idx) :
    broadcastInDim S2048x1024x32 ![0, 1, 2] bcast_S2048x1024x1_S2048x1024x32_0_1_2
        (broadcastInDim S2048x1024x1 ![0, 1] bcast_S2048x1024_S2048x1024x1_0_1 w) i = w (weightOf i) := by
  refine (broadcastInDim_apply _ _ _ i (ix3 (n0 := 2048) (n1 := 1024) (n2 := 1) (i 0) (i 1) 0) (fun a => match a with
    | ⟨0, _⟩ => by show (i 0).val = (if (2048 : Nat) = 1 then 0 else (i 0).val); rw [if_neg (by decide)]
    | ⟨1, _⟩ => by show (i 1).val = (if (1024 : Nat) = 1 then 0 else (i 1).val); rw [if_neg (by decide)]
    | ⟨2, _⟩ => by show 0 = (if (1 : Nat) = 1 then 0 else (i 2).val); rw [if_pos rfl])).trans ?_
  exact broadcastInDim_apply _ _ _ _ (weightOf i) (fun a => match a with
    | ⟨0, _⟩ => by show (i 0).val = (if (2048 : Nat) = 1 then 0 else (i 0).val); rw [if_neg (by decide)]
    | ⟨1, _⟩ => by show (i 1).val = (if (1024 : Nat) = 1 then 0 else (i 1).val); rw [if_neg (by decide)])

/-- An erase or add vector repeated along the slots, at an entry, is the vector at the entry's batch row and feature. -/
theorem row_at (v : FVec F S2048x1x32 .f32) (i : S2048x1024x32.Idx) :
    broadcastInDim S2048x1024x32 ![0, 1, 2] bcast_S2048x1x32_S2048x1024x32_0_1_2 v i = v (rowOf i) :=
  broadcastInDim_apply _ _ _ i (rowOf i) (fun a => match a with
    | ⟨0, _⟩ => by show (i 0).val = (if (2048 : Nat) = 1 then 0 else (i 0).val); rw [if_neg (by decide)]
    | ⟨1, _⟩ => by show 0 = (if (1 : Nat) = 1 then 0 else (i 1).val); rw [if_pos rfl]
    | ⟨2, _⟩ => by show (i 2).val = (if (32 : Nat) = 1 then 0 else (i 2).val); rw [if_neg (by decide)])

/-- The word of 1.0 repeated everywhere reads that word. -/
theorem one_at (i : S2048x1024x32.Idx) :
    broadcastInDim S2048x1024x32 ![] bcast_S_S2048x1024x32 (constant (F := F) S_ .f32 0x3F800000#32) i
      = FloatOps.ofBits .f32 0x3F800000#32 :=
  broadcastInDim_scalar_apply _ _ i

/-- The reference's whole-array term for the written memories: the repetitions, then `mem · (1 − w · erase) + w · add`
    taken entry by entry, in the reference's order of operations. -/
def tailTerm (mem : FVec F S1024x32 .f32) (w : FVec F S2048x1024 .f32) (erase add : FVec F S2048x1x32 .f32) :
    FVec F S2048x1024x32 .f32 :=
  addf
    (mulf
      (broadcastInDim S2048x1024x32 ![0, 1, 2] bcast_S1x1024x32_S2048x1024x32_0_1_2
        (broadcastInDim S1x1024x32 ![1, 2] bcast_S1024x32_S1x1024x32_1_2 mem))
      (subf (broadcastInDim S2048x1024x32 ![] bcast_S_S2048x1024x32 (constant (F := F) S_ .f32 0x3F800000#32))
        (mulf
          (broadcastInDim S2048x1024x32 ![0, 1, 2] bcast_S2048x1024x1_S2048x1024x32_0_1_2
            (broadcastInDim S2048x1024x1 ![0, 1] bcast_S2048x1024_S2048x1024x1_0_1 w))
          (broadcastInDim S2048x1024x32 ![0, 1, 2] bcast_S2048x1x32_S2048x1024x32_0_1_2 erase))))
    (mulf
      (broadcastInDim S2048x1024x32 ![0, 1, 2] bcast_S2048x1024x1_S2048x1024x32_0_1_2
        (broadcastInDim S2048x1024x1 ![0, 1] bcast_S2048x1024_S2048x1024x1_0_1 w))
      (broadcastInDim S2048x1024x32 ![0, 1, 2] bcast_S2048x1x32_S2048x1024x32_0_1_2 add))

/-- That term is `written`, entry by entry. -/
theorem tail_eq (mem : FVec F S1024x32 .f32) (w : FVec F S2048x1024 .f32) (erase add : FVec F S2048x1x32 .f32) :
    tailTerm mem w erase add = written mem w erase add := by
  funext i
  show FloatOps.addf
      (FloatOps.mulf
        (broadcastInDim S2048x1024x32 ![0, 1, 2] bcast_S1x1024x32_S2048x1024x32_0_1_2
          (broadcastInDim S1x1024x32 ![1, 2] bcast_S1024x32_S1x1024x32_1_2 mem) i)
        (FloatOps.subf (broadcastInDim S2048x1024x32 ![] bcast_S_S2048x1024x32 (constant (F := F) S_ .f32 0x3F800000#32) i)
          (FloatOps.mulf
            (broadcastInDim S2048x1024x32 ![0, 1, 2] bcast_S2048x1024x1_S2048x1024x32_0_1_2
              (broadcastInDim S2048x1024x1 ![0, 1] bcast_S2048x1024_S2048x1024x1_0_1 w) i)
            (broadcastInDim S2048x1024x32 ![0, 1, 2] bcast_S2048x1x32_S2048x1024x32_0_1_2 erase i))))
      (FloatOps.mulf
        (broadcastInDim S2048x1024x32 ![0, 1, 2] bcast_S2048x1024x1_S2048x1024x32_0_1_2
          (broadcastInDim S2048x1024x1 ![0, 1] bcast_S2048x1024_S2048x1024x1_0_1 w) i)
        (broadcastInDim S2048x1024x32 ![0, 1, 2] bcast_S2048x1x32_S2048x1024x32_0_1_2 add i))
    = _
  rw [mem_at, one_at, weight_at, row_at erase, row_at add]
  rfl

end Cert.ReferenceIdeal.Tail

end
-- ==== Proof.KernelHost.lean ====
/-
  The host computations before the kernel's launch are the reference's.

  Before it launches the write-back kernel, the kernel's program computes on the host — from zero initial hidden and cell
  states — the read weights (a softmax over the memory slots), the read vector, the four gates of the recurrent cell, the
  new hidden state `h`, the write weights `softmax (h · W_wattnᵀ + b_wattn)`, the erase vector
  `sigmoid (h · W_erᵀ + b_er)`, the add vector `tanh (h · W_adᵀ + b_ad)` and the output projection
  `[h, read] · W_outᵀ + b_out`. The reference performs the SAME operations, in the same order, on its own arguments.
  So whenever the two programs' sixteen argument arrays agree, the arrays the kernel's region finds — the write weights,
  the erase and add vectors with their unit middle axis — and the output are the reference's terms of its arguments.
  No softmax, product or sum is ever opened: each side is evaluated to its composed term and the two terms coincide.
-/
import proofs.«134862_j3152505996096_2_alg».proof.Proof.Gen.KernelIdeal.Frame
import proofs.«134862_j3152505996096_2_alg».proof.Proof.ReferenceRun

noncomputable section

namespace Cert.HostBridge

open Idealize.ShloMosaic Idealize.ShloMosaic.TcCoe Idealize.SL.Sem Idealize.ShloMosaic.StableHlo
open Cert.ReferenceIdeal Cert.ReferenceIdeal.Gen Cert.ReferenceIdeal.ValueP

variable {F : FTy → Type} [FloatOps F]

/-- Core `c`'s launch contents of the kernel's sixteen arguments are the values `VR` gives the reference's arguments. -/
structure SameArgs (m : (ℓ : Loc Cert.KernelIdeal.nD Cert.KernelIdeal.τ Cert.KernelIdeal.sig) → Buf (Elt F) ℓ)
    (c : Dev Cert.KernelIdeal.nD) (VR : Valuation τ sig (Elt F)) : Prop where
  x : m (c, Proc.devRef .tc Cert.KernelIdeal.main_arg0) = VR (Proc.devRef .tc main_arg0)
  memory : m (c, Proc.devRef .tc Cert.KernelIdeal.main_arg1) = VR (Proc.devRef .tc main_arg1)
  W_rattn : m (c, Proc.devRef .tc Cert.KernelIdeal.main_arg2) = VR (Proc.devRef .tc main_arg2)
  b_rattn : m (c, Proc.devRef .tc Cert.KernelIdeal.main_arg3) = VR (Proc.devRef .tc main_arg3)
  W_ih : m (c, Proc.devRef .tc Cert.KernelIdeal.main_arg4) = VR (Proc.devRef .tc main_arg4)
  W_hh : m (c, Proc.devRef .tc Cert.KernelIdeal.main_arg5) = VR (Proc.devRef .tc main_arg5)
  b_ih : m (c, Proc.devRef .tc Cert.KernelIdeal.main_arg6) = VR (Proc.devRef .tc main_arg6)
  b_hh : m (c, Proc.devRef .tc Cert.KernelIdeal.main_arg7) = VR (Proc.devRef .tc main_arg7)
  W_wattn : m (c, Proc.devRef .tc Cert.KernelIdeal.main_arg8) = VR (Proc.devRef .tc main_arg8)
  b_wattn : m (c, Proc.devRef .tc Cert.KernelIdeal.main_arg9) = VR (Proc.devRef .tc main_arg9)
  W_er : m (c, Proc.devRef .tc Cert.KernelIdeal.main_arg10) = VR (Proc.devRef .tc main_arg10)
  b_er : m (c, Proc.devRef .tc Cert.KernelIdeal.main_arg11) = VR (Proc.devRef .tc main_arg11)
  W_ad : m (c, Proc.devRef .tc Cert.KernelIdeal.main_arg12) = VR (Proc.devRef .tc main_arg12)
  b_ad : m (c, Proc.devRef .tc Cert.KernelIdeal.main_arg13) = VR (Proc.devRef .tc main_arg13)
  W_out : m (c, Proc.devRef .tc Cert.KernelIdeal.main_arg14) = VR (Proc.devRef .tc main_arg14)
  b_out : m (c, Proc.devRef .tc Cert.KernelIdeal.main_arg15) = VR (Proc.devRef .tc main_arg15)

/-- The erase vector `sigmoid (h · W_erᵀ + b_er)`, as `1 / (1 + exp (−·))`, of the reference's arguments. -/
def eraseVec (VR : Valuation τ sig (Elt F)) : FVec F S2048x32 .f32 :=
  Host.divf (broadcastInDim S2048x32 ![] bcast_S_S2048x32 (constant S_ .f32 0x3F800000#32)) (addf (broadcastInDim S2048x32 ![] bcast_S_S2048x32 (constant S_ .f32 0x3F800000#32)) (Host.exp (Host.negf (addf (Host.dotGeneral dot_S2048x256_S256x32_S2048x32_1_0_0_1_n_n none (res_main_v58 VR) (transpose S256x32 [1, 0] (VR (Proc.devRef .tc main_arg10)) transposes_S32x256_S256x32_1_0)) (broadcastInDim S2048x32 ![0, 1] bcast_S1x32_S2048x32_0_1 (broadcastInDim S1x32 ![1] bcast_S32_S1x32_1 (VR (Proc.devRef .tc main_arg11))))))))

/-- The add vector `tanh (h · W_adᵀ + b_ad)` of the reference's arguments. -/
def addVec (VR : Valuation τ sig (Elt F)) : FVec F S2048x32 .f32 :=
  Host.tanh (addf (Host.dotGeneral dot_S2048x256_S256x32_S2048x32_1_0_0_1_n_n none (res_main_v58 VR) (transpose S256x32 [1, 0] (VR (Proc.devRef .tc main_arg12)) transposes_S32x256_S256x32_1_0)) (broadcastInDim S2048x32 ![0, 1] bcast_S1x32_S2048x32_0_1 (broadcastInDim S1x32 ![1] bcast_S32_S1x32_1 (VR (Proc.devRef .tc main_arg13)))))

/-- The output projection `[h, read] · W_outᵀ + b_out` of the reference's arguments. -/
def outputVec (VR : Valuation τ sig (Elt F)) : FVec F S2048x256 .f32 :=
  addf (Host.dotGeneral dot_S2048x288_S288x256_S2048x256_1_0_0_1_n_n none (concatenate S2048x288 1 [⟨S2048x256, (res_main_v58 VR)⟩, ⟨S2048x32, (res_main_v18 VR)⟩] concatenates_S2048x256_S2048x32_S2048x288_d1) (transpose S288x256 [1, 0] (VR (Proc.devRef .tc main_arg14)) transposes_S256x288_S288x256_1_0)) (broadcastInDim S2048x256 ![0, 1] bcast_S1x256_S2048x256_0_1 (broadcastInDim S1x256 ![1] bcast_S256_S1x256_1 (VR (Proc.devRef .tc main_arg15))))

variable (m : (ℓ : Loc Cert.KernelIdeal.nD Cert.KernelIdeal.τ Cert.KernelIdeal.sig) → Buf (Elt F) ℓ)
  (c : Dev Cert.KernelIdeal.nD) (VR : Valuation τ sig (Elt F))

set_option maxRecDepth 16384 in
set_option maxHeartbeats 8000000 in
/-- The write weights the region finds are the reference's write weights. -/
theorem weights_eq (h : SameArgs m c VR) :
    (Cert.KernelIdeal.Gen.V m c Cert.KernelIdeal.main_v74 : S2048x1024.Idx → Elt F .f32) = res_main_v74 VR := by
  show StableHlo.after Cert.KernelIdeal.Gen.hostOps0 (fun b => m (c, b)) (Proc.devRef .tc Cert.KernelIdeal.main_v74) = _
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', concat2_def]
  simp only [h.x, h.memory, h.W_rattn, h.b_rattn, h.W_ih, h.W_hh, h.b_ih, h.b_hh, h.W_wattn, h.b_wattn, h.W_er, h.b_er, h.W_ad, h.b_ad, h.W_out, h.b_out]
  rfl

set_option maxRecDepth 16384 in
set_option maxHeartbeats 8000000 in
/-- The erase vector the region finds is the reference's, with the unit middle axis. -/
theorem erase_eq (h : SameArgs m c VR) :
    (Cert.KernelIdeal.Gen.V m c Cert.KernelIdeal.main_v98 : S2048x1x32.Idx → Elt F .f32)
      = broadcastInDim S2048x1x32 ![0, 2] bcast_S2048x32_S2048x1x32_0_2 (eraseVec VR) := by
  show StableHlo.after Cert.KernelIdeal.Gen.hostOps0 (fun b => m (c, b)) (Proc.devRef .tc Cert.KernelIdeal.main_v98) = _
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', concat2_def]
  simp only [h.x, h.memory, h.W_rattn, h.b_rattn, h.W_ih, h.W_hh, h.b_ih, h.b_hh, h.W_wattn, h.b_wattn, h.W_er, h.b_er, h.W_ad, h.b_ad, h.W_out, h.b_out]
  rfl

set_option maxRecDepth 16384 in
set_option maxHeartbeats 8000000 in
/-- The add vector the region finds is the reference's, with the unit middle axis. -/
theorem add_eq (h : SameArgs m c VR) :
    (Cert.KernelIdeal.Gen.V m c Cert.KernelIdeal.main_v99 : S2048x1x32.Idx → Elt F .f32)
      = broadcastInDim S2048x1x32 ![0, 2] bcast_S2048x32_S2048x1x32_0_2 (addVec VR) := by
  show StableHlo.after Cert.KernelIdeal.Gen.hostOps0 (fun b => m (c, b)) (Proc.devRef .tc Cert.KernelIdeal.main_v99) = _
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', concat2_def]
  simp only [h.x, h.memory, h.W_rattn, h.b_rattn, h.W_ih, h.W_hh, h.b_ih, h.b_hh, h.W_wattn, h.b_wattn, h.W_er, h.b_er, h.W_ad, h.b_ad, h.W_out, h.b_out]
  rfl

set_option maxRecDepth 16384 in
set_option maxHeartbeats 8000000 in
/-- The kernel program's output projection is the reference's. -/
theorem output_eq (h : SameArgs m c VR) :
    (Cert.KernelIdeal.Gen.V m c Cert.KernelIdeal.main_v97 : S2048x256.Idx → Elt F .f32) = outputVec VR := by
  show StableHlo.after Cert.KernelIdeal.Gen.hostOps0 (fun b => m (c, b)) (Proc.devRef .tc Cert.KernelIdeal.main_v97) = _
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', concat2_def]
  simp only [h.x, h.memory, h.W_rattn, h.b_rattn, h.W_ih, h.W_hh, h.b_ih, h.b_hh, h.W_wattn, h.b_wattn, h.W_er, h.b_er, h.W_ad, h.b_ad, h.W_out, h.b_out]
  rfl

end Cert.HostBridge

end
-- ==== Proof.ReferenceValues.lean ====
/-
  The reference's run, in the specification's terms.

  The reference is a straight line of 131 host operations, so every weakly fair execution ends with each buffer at the
  fold of the operations over the launch contents. Evaluating that fold at the two results gives: the output projection
  `[h, read] · W_outᵀ + b_out`; and, for the written memories, the broadcasts and products that `ReferenceTail` reads
  entry by entry as `written` of the memory matrix, the write weights and the erase and add vectors. The sixteen
  arguments are written by no operation and end as launched. The chain below the write weights and the two vectors
  is never opened: it appears only as the named terms `res_main_v74`, `eraseVec`, `addVec`.
-/
import proofs.«134862_j3152505996096_2_alg».proof.Proof.ReferenceRun
import proofs.«134862_j3152505996096_2_alg».proof.Proof.ReferenceTail
import proofs.«134862_j3152505996096_2_alg».proof.Proof.KernelHost

noncomputable section

namespace Cert.ReferenceIdeal.Spec

open Idealize.ShloMosaic Idealize.ShloMosaic.TcCoe Idealize.SL.Sem Idealize.ShloMosaic.StableHlo
open Cert.ReferenceIdeal Cert.ReferenceIdeal.Gen Cert.ReferenceIdeal.ValueP Cert.HostBridge Cert.MemoryWrite

variable {F : FTy → Type} [FloatOps F]

/-- The written memories as the reference's function of its arguments. -/
def writtenRef (VR : Valuation τ sig (Elt F)) : SWritten.Idx → Elt F .f32 :=
  written (VR (Proc.devRef .tc main_arg1)) (res_main_v74 VR)
    (broadcastInDim S2048x1x32 ![0, 2] bcast_S2048x32_S2048x1x32_0_2 (eraseVec VR))
    (broadcastInDim S2048x1x32 ![0, 2] bcast_S2048x32_S2048x1x32_0_2 (addVec VR))

variable (VR : Valuation τ sig (Elt F))

set_option maxRecDepth 16384 in
set_option maxHeartbeats 8000000 in
/-- The fold at the first result is the output projection. -/
theorem output_term : after (ops (F := F)) VR (Proc.devRef .tc main_v113) = outputVec VR := by
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', concat2_def]
  rfl

set_option maxRecDepth 16384 in
set_option maxHeartbeats 8000000 in
/-- The fold at the second result is `written`, entry by entry. -/
theorem written_term :
    (after (ops (F := F)) VR (Proc.devRef .tc main_v107) : SWritten.Idx → Elt F .f32) = writtenRef VR := by
  have e : after (ops (F := F)) VR (Proc.devRef .tc main_v107)
      = Tail.tailTerm (VR (Proc.devRef .tc main_arg1)) (res_main_v74 VR)
          (broadcastInDim S2048x1x32 ![0, 2] bcast_S2048x32_S2048x1x32_0_2 (eraseVec VR))
          (broadcastInDim S2048x1x32 ![0, 2] bcast_S2048x32_S2048x1x32_0_2 (addVec VR)) := by
    simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', concat2_def]
    rfl
  exact e.trans (Tail.tail_eq _ _ _ _)

/-! No operation writes an argument. -/
theorem kept_arg0 : after (ops (F := F)) VR (Proc.devRef .tc main_arg0) = VR (Proc.devRef .tc main_arg0) := by
  after_results_simp <;> rfl
theorem kept_arg1 : after (ops (F := F)) VR (Proc.devRef .tc main_arg1) = VR (Proc.devRef .tc main_arg1) := by
  after_results_simp <;> rfl
theorem kept_arg2 : after (ops (F := F)) VR (Proc.devRef .tc main_arg2) = VR (Proc.devRef .tc main_arg2) := by
  after_results_simp <;> rfl
theorem kept_arg3 : after (ops (F := F)) VR (Proc.devRef .tc main_arg3) = VR (Proc.devRef .tc main_arg3) := by
  after_results_simp <;> rfl
theorem kept_arg4 : after (ops (F := F)) VR (Proc.devRef .tc main_arg4) = VR (Proc.devRef .tc main_arg4) := by
  after_results_simp <;> rfl
theorem kept_arg5 : after (ops (F := F)) VR (Proc.devRef .tc main_arg5) = VR (Proc.devRef .tc main_arg5) := by
  after_results_simp <;> rfl
theorem kept_arg6 : after (ops (F := F)) VR (Proc.devRef .tc main_arg6) = VR (Proc.devRef .tc main_arg6) := by
  after_results_simp <;> rfl
theorem kept_arg7 : after (ops (F := F)) VR (Proc.devRef .tc main_arg7) = VR (Proc.devRef .tc main_arg7) := by
  after_results_simp <;> rfl
theorem kept_arg8 : after (ops (F := F)) VR (Proc.devRef .tc main_arg8) = VR (Proc.devRef .tc main_arg8) := by
  after_results_simp <;> rfl
theorem kept_arg9 : after (ops (F := F)) VR (Proc.devRef .tc main_arg9) = VR (Proc.devRef .tc main_arg9) := by
  after_results_simp <;> rfl
theorem kept_arg10 : after (ops (F := F)) VR (Proc.devRef .tc main_arg10) = VR (Proc.devRef .tc main_arg10) := by
  after_results_simp <;> rfl
theorem kept_arg11 : after (ops (F := F)) VR (Proc.devRef .tc main_arg11) = VR (Proc.devRef .tc main_arg11) := by
  after_results_simp <;> rfl
theorem kept_arg12 : after (ops (F := F)) VR (Proc.devRef .tc main_arg12) = VR (Proc.devRef .tc main_arg12) := by
  after_results_simp <;> rfl
theorem kept_arg13 : after (ops (F := F)) VR (Proc.devRef .tc main_arg13) = VR (Proc.devRef .tc main_arg13) := by
  after_results_simp <;> rfl
theorem kept_arg14 : after (ops (F := F)) VR (Proc.devRef .tc main_arg14) = VR (Proc.devRef .tc main_arg14) := by
  after_results_simp <;> rfl
theorem kept_arg15 : after (ops (F := F)) VR (Proc.devRef .tc main_arg15) = VR (Proc.devRef .tc main_arg15) := by
  after_results_simp <;> rfl

/-- Every weakly fair execution of the reference terminates with the output projection, `written`, and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v113) = outputVec (launchContents m c)
      ∧ r.2.mem ((c.tc : Thread nD τ).loc main_v107) = writtenRef (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun _ h c => ⟨(h c main_v113).trans (output_term _), (h c main_v107).trans (written_term _),
      (h c main_arg0).trans (kept_arg0 _),
      (h c main_arg1).trans (kept_arg1 _),
      (h c main_arg2).trans (kept_arg2 _),
      (h c main_arg3).trans (kept_arg3 _),
      (h c main_arg4).trans (kept_arg4 _),
      (h c main_arg5).trans (kept_arg5 _),
      (h c main_arg6).trans (kept_arg6 _),
      (h c main_arg7).trans (kept_arg7 _),
      (h c main_arg8).trans (kept_arg8 _),
      (h c main_arg9).trans (kept_arg9 _),
      (h c main_arg10).trans (kept_arg10 _),
      (h c main_arg11).trans (kept_arg11 _),
      (h c main_arg12).trans (kept_arg12 _),
      (h c main_arg13).trans (kept_arg13 _),
      (h c main_arg14).trans (kept_arg14 _),
      (h c main_arg15).trans (kept_arg15 _)⟩)
    (run_seq scopedRefs_eq scopedSems_eq defs main (fun _ => ops) main_eq (fun _ => ops_sub) m ρ)

end Cert.ReferenceIdeal.Spec

end
-- ==== Proof.lean ====
/-
  A recurrent attention cell over an external memory, one step from zero hidden and cell states: the read head's softmax
  over the 1024 memory slots, the read vector, the four gates of the cell, the new hidden state `h`, the write head's
  weights `w = softmax (h · W_wattnᵀ + b_wattn)`, the erase vector `e = sigmoid (h · W_erᵀ + b_er)`, the add vector
  `a = tanh (h · W_adᵀ + b_ad)`, the output projection, and — the large result — one updated memory per batch row,

      written[b, r, d] = mem[r, d] · (1 − w[b, r] · e[b, d]) + w[b, r] · a[b, d].

  The two programs differ only in HOW the written memories are formed. The kernel's program computes everything up to
  `w`, `e`, `a` and the output on the host and then forms the written memories in a pipelined kernel, 32 batch rows
  per grid point; the reference forms them with whole-array broadcasts and products. Both apply the same operations in
  the same order to each entry, so at the ideal instance the results are equal term by term, with no law of the
  extended reals and no use of the inputs' finiteness:
    * `WriteSpec`      — `written` as one function of four arrays, entry by entry;
    * `KernelArray`    — the kernel's blocks are blocks of `written` and tile the array;
    * `ReferenceTail`  — the reference's broadcasts and products are `written`, entry by entry;
    * `KernelHost`     — the host computations before the launch are the reference's own terms of agreeing arguments
                         (the shared chain — two softmaxes, five matrix products — is carried folded, never opened);
    * `ReferenceRun`   — the reference's operations as a list and their run (a repaired copy of the generated module);
    * `ReferenceValues` — that run's two results evaluated: the output projection, and `written`.
  The ideal pass rewrote nothing in the kernel, so `preserves` has nothing to state.
-/
import proofs.«134862_j3152505996096_2_alg».proof.Defs
import proofs.«134862_j3152505996096_2_alg».proof.Proof.Gen.Kernel
import proofs.«134862_j3152505996096_2_alg».proof.Proof.Gen.Kernel.Skeleton
import proofs.«134862_j3152505996096_2_alg».proof.Proof.Gen.Kernel.Launch
import proofs.«134862_j3152505996096_2_alg».proof.Proof.Gen.Kernel.Points
import proofs.«134862_j3152505996096_2_alg».proof.Proof.Gen.Kernel.Frame
import proofs.«134862_j3152505996096_2_alg».proof.Proof.Gen.KernelIdeal
import proofs.«134862_j3152505996096_2_alg».proof.Proof.Gen.KernelIdeal.Skeleton
import proofs.«134862_j3152505996096_2_alg».proof.Proof.Gen.KernelIdeal.Launch
import proofs.«134862_j3152505996096_2_alg».proof.Proof.Gen.KernelIdeal.Points
import proofs.«134862_j3152505996096_2_alg».proof.Proof.Gen.KernelIdeal.Frame
import proofs.«134862_j3152505996096_2_alg».proof.Proof.Gen.ReferenceIdeal
import proofs.«134862_j3152505996096_2_alg».proof.Proof.Gen.Pre_finite_inputs
import proofs.«134862_j3152505996096_2_alg».proof.Proof.Gen.KernelIdeal.Value
import proofs.«134862_j3152505996096_2_alg».proof.Proof.WriteSpec
import proofs.«134862_j3152505996096_2_alg».proof.Proof.KernelArray
import proofs.«134862_j3152505996096_2_alg».proof.Proof.ReferenceTail
import proofs.«134862_j3152505996096_2_alg».proof.Proof.ReferenceRun
import proofs.«134862_j3152505996096_2_alg».proof.Proof.KernelHost
import proofs.«134862_j3152505996096_2_alg».proof.Proof.ReferenceValues
import Idealize.ShloMosaic.Adequacy
import Idealize.ShloMosaic.Init

noncomputable section

namespace Cert.Proof

open Idealize.ShloMosaic Idealize.ShloMosaic.TcCoe Idealize.SL.Sem Idealize.ShloMosaic.StableHlo
open Cert.MemoryWrite Cert.HostBridge

/-- `written` respects equality of each of its four arrays. -/
theorem written_congr {F : FTy → Type} [FloatOps F] {mem mem' : SMem.Idx → Elt F .f32} {w w' : SWeights.Idx → Elt F .f32}
    {e e' a a' : SRow.Idx → Elt F .f32} (h1 : mem = mem') (h2 : w = w') (h3 : e = e') (h4 : a = a') :
    written mem w e a = written mem' w' e' a' := by subst h1 h2 h3 h4; rfl

theorem frame_k : Cert.frame_Kernel := fun m ρ _ => Cert.Kernel.Gen.frame m ρ

theorem frame_ki : Cert.frame_KernelIdeal := fun m ρ _ => Cert.KernelIdeal.Gen.frame m ρ

/-- The reference's frame is its run with the two results dropped. -/
theorem frame_ri : Cert.frame_ReferenceIdeal := fun m ρ _ =>
  (θ_run Cert.ReferenceIdeal.defs _ _).mono (fun _ h c => (h c).2.2) (Cert.ReferenceIdeal.Spec.run (F := Ideal) m ρ)

set_option maxHeartbeats 1000000 in
/-- At the ideal instance, from memories agreeing on the sixteen arguments, both programs end with the reference's output
    projection and with `written` of the memory matrix, the write weights and the erase and add vectors — all four the
    reference's terms of its arguments. -/
theorem algebraic : Cert.algebraic_KernelIdeal_ReferenceIdeal := by
  intro m ρ m' ρ' _ hagree
  have hs : ∀ c : Dev Cert.KernelIdeal.nD, SameArgs m c (launchContents m' c) := fun c => by
    obtain ⟨a0, a1, a2, a3, a4, a5, a6, a7, a8, a9, a10, a11, a12, a13, a14, a15⟩ := hagree c
    exact ⟨a0.symm, a1.symm, a2.symm, a3.symm, a4.symm, a5.symm, a6.symm, a7.symm, a8.symm, a9.symm, a10.symm, a11.symm, a12.symm, a13.symm, a14.symm, a15.symm⟩
  refine ⟨fun c => outputVec (launchContents m' c), fun c => Cert.ReferenceIdeal.Spec.writtenRef (launchContents m' c), ?_,
    Cert.ReferenceIdeal.Spec.run (F := Ideal) m' ρ'⟩
  -- the kernel's program: the output bypasses the region; the written memories are the region's array
  refine (θ_run Cert.KernelIdeal.defs _ _).mono (fun r h c => ⟨?_, ?_,
      Cert.KernelIdeal.Value.kept_main_arg0 m r h c,
      Cert.KernelIdeal.Value.kept_main_arg1 m r h c,
      Cert.KernelIdeal.Value.kept_main_arg2 m r h c,
      Cert.KernelIdeal.Value.kept_main_arg3 m r h c,
      Cert.KernelIdeal.Value.kept_main_arg4 m r h c,
      Cert.KernelIdeal.Value.kept_main_arg5 m r h c,
      Cert.KernelIdeal.Value.kept_main_arg6 m r h c,
      Cert.KernelIdeal.Value.kept_main_arg7 m r h c,
      Cert.KernelIdeal.Value.kept_main_arg8 m r h c,
      Cert.KernelIdeal.Value.kept_main_arg9 m r h c,
      Cert.KernelIdeal.Value.kept_main_arg10 m r h c,
      Cert.KernelIdeal.Value.kept_main_arg11 m r h c,
      Cert.KernelIdeal.Value.kept_main_arg12 m r h c,
      Cert.KernelIdeal.Value.kept_main_arg13 m r h c,
      Cert.KernelIdeal.Value.kept_main_arg14 m r h c,
      Cert.KernelIdeal.Value.kept_main_arg15 m r h c⟩) (Cert.KernelIdeal.Gen.run_main m ρ)
  · exact ((h c).2 Cert.KernelIdeal.main_v97 (Pipeline.mem_restRefs_of Cert.KernelIdeal.main_v97 (by decide) (by decide))).trans
      (output_eq m c _ (hs c))
  · exact (Cert.KernelIdeal.Value.post4 m r h c).trans ((Cert.KernelIdeal.Written.final m c).trans
      (written_congr ((Cert.KernelIdeal.Gen.V_main_arg1 m c).trans (hs c).memory) (weights_eq m c _ (hs c))
        (erase_eq m c _ (hs c)) (add_eq m c _ (hs c))))

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
